-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x2x128 : Shape := ⟨4, ![16, 1024, 2, 128]⟩
abbrev S16x1024 : Shape := ⟨2, ![16, 1024]⟩
abbrev S_ : Shape := ⟨0, ![]⟩

class Facts : Prop where
  bcast_S_S16x1024x2x128 : S_.BroadcastsInDim S16x1024x2x128 (![] : Fin 0 → Fin S16x1024x2x128.rank)
  reducesTo_S16x1024x2x128_S_d0_1_2_3 : S16x1024x2x128.ReducesTo [0, 1, 2, 3] S_
  h_S_ : 0 < S_.numel

variable [Facts]

def fn {F : FTy → Type} [FloatOps F] (main_arg0 : FVec F S16x1024x2x128 .f32) (main_arg1 : IVec S16x1024 32) : IVec S_ 1 :=
  let main_v0 : FVec F S16x1024x2x128 .f32 := Host.absf main_arg0
  let main_cst : FVec F S_ .f32 := constant S_ .f32 0x7F800000#32
  let main_v1 : FVec F S16x1024x2x128 .f32 := broadcastInDim S16x1024x2x128 ![] bcast_S_S16x1024x2x128 main_cst
  let main_v2 : IVec S16x1024x2x128 1 := cmpf .olt main_v0 main_v1
  let main_c : IVec S_ 1 := constantI S_ 1 1#1
  let main_v3 : IVec S_ 1 := (fun x v => Host.reduce IntOp.andi x v reducesTo_S16x1024x2x128_S_d0_1_2_3 h_S_) main_v2 main_c
  main_v3
-- ==== Kernel.lean ====
abbrev S16x1024x2x128 : Shape := ⟨4, ![16, 1024, 2, 128]⟩
abbrev S16x1024 : Shape := ⟨2, ![16, 1024]⟩
abbrev S16x2048x128 : Shape := ⟨3, ![16, 2048, 128]⟩
abbrev S16x1024x2 : Shape := ⟨3, ![16, 1024, 2]⟩
abbrev S16x2048 : Shape := ⟨2, ![16, 2048]⟩
abbrev S16x1x2048 : Shape := ⟨3, ![16, 1, 2048]⟩
abbrev S1x2048x128 : Shape := ⟨3, ![1, 2048, 128]⟩
abbrev S1x1x2048 : Shape := ⟨3, ![1, 1, 2048]⟩
abbrev S1x1x1024 : Shape := ⟨3, ![1, 1, 1024]⟩
abbrev S2048x128 : Shape := ⟨2, ![2048, 128]⟩
abbrev S1x1024x128 : Shape := ⟨3, ![1, 1024, 128]⟩
abbrev S1024x128 : Shape := ⟨2, ![1024, 128]⟩
abbrev S1024x2048 : Shape := ⟨2, ![1024, 2048]⟩
abbrev S1024 : Shape := ⟨1, ![1024]⟩
abbrev S1024x1 : Shape := ⟨2, ![1024, 1]⟩
abbrev S1x2048 : Shape := ⟨2, ![1, 2048]⟩
abbrev S1x1024 : Shape := ⟨2, ![1, 1024]⟩
abbrev S_ : Shape := ⟨0, ![]⟩

abbrev nBuf : Space → Nat
  | .hbm => 14
  | .vmem => 6
  | .smem => 0
  | _ => 0

abbrev bufTy : (tb : Table) → Fin (tcTables nBuf tb) → BufTy
  | .hbm, ⟨0, _⟩ => ⟨S16x1024x2x128, .f32⟩
  | .hbm, ⟨1, _⟩ => ⟨S16x1024, .i32⟩
  | .hbm, ⟨2, _⟩ => ⟨S16x2048x128, .f32⟩
  | .hbm, ⟨3, _⟩ => ⟨S16x1024x2, .i32⟩
  | .hbm, ⟨4, _⟩ => ⟨S16x2048, .i32⟩
  | .hbm, ⟨5, _⟩ => ⟨S16x1x2048, .i32⟩
  | .hbm, ⟨6, _⟩ => ⟨S16x1x2048, .f32⟩
  | .hbm, ⟨7, _⟩ => ⟨S16x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x2048x128, .f32⟩
  | .local _ .vmem, ⟨1, _⟩ => ⟨S1x2048x128, .f32⟩
  | .local _ .vmem, ⟨2, _⟩ => ⟨S1x1x2048, .i32⟩
  | .local _ .vmem, ⟨3, _⟩ => ⟨S1x1x2048, .i32⟩
  | .local _ .vmem, ⟨4, _⟩ => ⟨S1x1x1024, .f32⟩
  | .local _ .vmem, ⟨5, _⟩ => ⟨S1x1x1024, .f32⟩
  | _, _ => ⟨S16x1024x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 3 → Nat :=
  let c0_2 : Index := 0#32
  let arg1 : BitVec 32 := BitVec.ofNat 32 (i 1).val
  let c1024_i32 : BitVec 32 := 1024#32
  let v0 : BitVec 32 := Scalar.muli arg1 c1024_i32
  let v1 : BitVec 32 := v0
  let v4 : Index := Scalar.indexCast v1
  let c0_3 : Index := 0#32
  ![0, v4.toNat, 0]
def k0_off2 (i : grid0.Coords) : Fin 3 → Nat :=
  let c0_11 : Index := 0#32
  let c0_12 : Index := 0#32
  let arg1 : BitVec 32 := BitVec.ofNat 32 (i 1).val
  let c1024_i32 : BitVec 32 := 1024#32
  let v0 : BitVec 32 := Scalar.muli arg1 c1024_i32
  let v1 : BitVec 32 := v0
  let v28 : Index := Scalar.indexCast v1
  ![0, 0, v28.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x1024x2x128_S16x2048x128 : S16x1024x2x128.ShapeCasts S16x2048x128
  bcast_S16x1024_S16x1024x2_0_1 : S16x1024.BroadcastsInDim S16x1024x2 (![0, 1] : Fin 2 → Fin S16x1024x2.rank)
  shapeCasts_S16x1024x2_S16x2048 : S16x1024x2.ShapeCasts S16x2048
  bcast_S16x2048_S16x1x2048_0_2 : S16x2048.BroadcastsInDim S16x1x2048 (![0, 2] : Fin 2 → Fin S16x1x2048.rank)
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  h_S1x1024x128 : 0 < S1x1024x128.numel
  shapeCasts_S1x1024x128_S1024x128 : S1x1024x128.ShapeCasts S1024x128
  bitsLt_bf16_f32 : FTy.bits .bf16 < FTy.bits .f32
  iota_S1024x2048_d0_w32 : S1024x2048.Iotas .tc 32 [0]
  iota_S1024x2048_d1_w32 : S1024x2048.Iotas .tc 32 [1]
  reduces_S1024x2048_S1024 : S1024x2048.Reduces [1] S1024
  shapeCasts_S1024_S1024x1 : S1024.ShapeCasts S1024x1
  broadcasts_S1024x1_S1024x2048 : S1024x1.Broadcasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  h_S1x1x1024 : 0 < S1x1x1024.numel
  shapeCasts_S1x1x1024_S1024 : S1x1x1024.ShapeCasts S1024
  shapeCasts_S1024_S1x1024 : S1024.ShapeCasts S1x1024
  transposes_S1x1024_p1_0_S1024x1 : S1x1024.Transposes [1, 0] S1024x1
  broadcasts_S1x2048_S1024x2048 : S1x2048.Broadcasts S1024x2048
  natLt_1_32 : 1 < 32
  transposes_S1024x1_p1_0_S1x1024 : S1024x1.Transposes [1, 0] S1x1024
  shapeCasts_S1x1024_S1024 : S1x1024.ShapeCasts S1024
  inb_S1x1x1024_S1x1x1024_0_0_0 : ∀ a, (![0, 0, 0] : Fin 3 → Nat) a + S1x1x1024.size a ≤ S1x1x1024.size a
  shapeCasts_S1024_S1x1x1024 : S1024.ShapeCasts S1x1x1024
  shapeCasts_S16x1x2048_S16x2048 : S16x1x2048.ShapeCasts S16x2048
  reducesTo_S16x2048_S_d0_1 : S16x2048.ReducesTo [0, 1] S_
  h_S_ : 0 < S_.numel
  dot_S1024x128_S2048x128_S1024x2048_1_1_0_0_n_n_wf : DotDims.WF S1024x128 S2048x128 S1024x2048 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1x1024x128.size a ≤ S1x2048x128.size a
  k0_off2_inb : ∀ i : grid0.Coords, ∀ a, (k0_off2 i) a + S1x1x1024.size a ≤ S1x1x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S16x1x2048.size a
  hwx0_1 : ∀ i : grid0.Coords, EltTy.bits .i32 = 32 ∨ (Rect.block (s := S16x1x2048) S1x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x2048.size a
  hwx0_2 : ∀ i : grid0.Coords, EltTy.bits .f32 = 32 ∨ (Rect.block (s := S16x1x2048) S1x1x1024.size (cc0_transform_2 i) (hinb0_2 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x2x128 : Shape := ⟨4, ![16, 1024, 2, 128]⟩
abbrev S16x1024 : Shape := ⟨2, ![16, 1024]⟩
abbrev S16x2x1024x128 : Shape := ⟨4, ![16, 2, 1024, 128]⟩
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1024x1 : Shape := ⟨3, ![16, 1024, 1]⟩
abbrev S16x1x1024 : Shape := ⟨3, ![16, 1, 1024]⟩
abbrev S16x1024x1024 : Shape := ⟨3, ![16, 1024, 1024]⟩
abbrev S1x16x1x1024x1x1024 : Shape := ⟨6, ![1, 16, 1, 1024, 1, 1024]⟩
abbrev S1x16x2x1024x2x1024 : Shape := ⟨6, ![1, 16, 2, 1024, 2, 1024]⟩
abbrev S2048x2048 : Shape := ⟨2, ![2048, 2048]⟩
abbrev S1x2048x2048 : Shape := ⟨3, ![1, 2048, 2048]⟩
abbrev S16 : Shape := ⟨1, ![16]⟩

abbrev nBuf : Space → Nat
  | .hbm => 63
  | .vmem => 0
  | .smem => 0
  | _ => 0

abbrev bufTy : (tb : Table) → Fin (tcTables nBuf tb) → BufTy
  | .hbm, ⟨0, _⟩ => ⟨S16x1024x2x128, .f32⟩
  | .hbm, ⟨1, _⟩ => ⟨S16x1024, .i32⟩
  | .hbm, ⟨2, _⟩ => ⟨S16x2x1024x128, .f32⟩
  | .hbm, ⟨3, _⟩ => ⟨S16x2048x128, .f32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S16x2048x2048, .f32⟩
  | .hbm, ⟨12, _⟩ => ⟨S16x2048x2048, .f32⟩
  | .hbm, ⟨13, _⟩ => ⟨S16x1024x1, .i32⟩
  | .hbm, ⟨14, _⟩ => ⟨S16x1x1024, .i32⟩
  | .hbm, ⟨15, _⟩ => ⟨S16x1024x1024, .i32⟩
  | .hbm, ⟨16, _⟩ => ⟨S16x1024x1024, .i32⟩
  | .hbm, ⟨17, _⟩ => ⟨S16x1024x1024, .i1⟩
  | .hbm, ⟨18, _⟩ => ⟨S16x1024x1024, .f32⟩
  | .hbm, ⟨19, _⟩ => ⟨S1x16x1x1024x1x1024, .f32⟩
  | .hbm, ⟨20, _⟩ => ⟨S1x16x2x1024x2x1024, .f32⟩
  | .hbm, ⟨21, _⟩ => ⟨S16x2048x2048, .f32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S1x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S1x2048x2048, .f32⟩
  | .hbm, ⟨37, _⟩ => ⟨S16x2048x2048, .f32⟩
  | .hbm, ⟨38, _⟩ => ⟨S16x2048x2048, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S16x2048x1, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S_, .f32⟩
  | .hbm, ⟨47, _⟩ => ⟨S16x2048, .f32⟩
  | .hbm, ⟨48, _⟩ => ⟨S_, .f32⟩
  | .hbm, ⟨49, _⟩ => ⟨S16x2048, .f32⟩
  | .hbm, ⟨50, _⟩ => ⟨S16x2048, .f32⟩
  | .hbm, ⟨51, _⟩ => ⟨S_, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S16x1024x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩

abbrev nD : Nat := 1
abbrev τ : Topo := Topo.v7x

variable {F : FTy → Type} [FloatOps F]

class Facts₀ : Prop where
  transposes_S16x1024x2x128_S16x2x1024x128_0_2_1_3 : S16x1024x2x128.Transposes [0, 2, 1, 3] S16x2x1024x128
  shapeCasts_S16x2x1024x128_S16x2048x128 : S16x2x1024x128.ShapeCasts S16x2048x128
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  shapeCasts_S16x1024x1024_S1x16x1x1024x1x1024 : S16x1024x1024.ShapeCasts S1x16x1x1024x1x1024
  bcast_S1x16x1x1024x1x1024_S1x16x2x1024x2x1024_0_1_2_3_4_5 : S1x16x1x1024x1x1024.BroadcastsInDim S1x16x2x1024x2x1024 (![0, 1, 2, 3, 4, 5] : Fin 6 → Fin S1x16x2x1024x2x1024.rank)
  shapeCasts_S1x16x2x1024x2x1024_S16x2048x2048 : S1x16x2x1024x2x1024.ShapeCasts S16x2048x2048
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048_S16_d1 : S16x2048.ReducesTo [1] S16
  bcast_S_S16 : S_.BroadcastsInDim S16 (![] : Fin 0 → Fin S16.rank)
  reducesTo_S16_S_d0 : S16.ReducesTo [0] S_
  dot_S16x2048x128_S16x2048x128_S16x2048x2048_2_2_1_1_0_0_wf : DotDims.WF S16x2048x128 S16x2048x128 S16x2048x2048 [2] [2] [1] [1] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf

class Facts : Prop extends Facts₀ where

variable [Facts]
-- ==== Proof.Spec.lean ====
/-
  The supervised contrastive loss of 16 batches of 1024 samples, each sample seen in two views of 128 coordinates,
  written twice: once with the 2048 rows of a batch in sample-major order (row `n` is sample `n / 2`, view `n % 2`)
  and once in view-major order (row `n` is view `n / 1024`, sample `n % 1024`).

  For a row `n` and a column `j` of one batch the logit is the inner product of the two rows' features scaled by the
  inverse temperature. Column `j` is a POSITIVE of row `n` when the two carry the same label and `j ≠ n`.
  With `m` the largest logit of the row and `S` the sum over the columns `j ≠ n` of `exp (logit − m)`, the row's value is
  the mean over its positives of `logit − m − log S`; the loss is minus the mean of the rows' values.

  The sample-major form takes the mean over the positives as (sum of the positives' logits) / (their number, at least 1)
  and subtracts `m + log S` once; it scales by the product with `κ`, and takes one mean over all 16 · 2048 rows.
  The view-major form multiplies by 0/1 masks, subtracts `m` and `log S` inside the sum, scales by the quotient by `τ`,
  and takes the mean of the 16 batches' means. `κ · τ = 1`.
-/
import Idealize.ShloMosaic.PureOps.Ideal
import Idealize.ShloMosaic.Lib.ValueIdx

noncomputable section

open scoped BigOperators

namespace Cert.Spec

open Idealize.ShloMosaic Idealize.ShloMosaic.ValueIdx

/-- The features: batch, sample, view, coordinate. -/
abbrev Feat : Type := (⟨4, ![16, 1024, 2, 128]⟩ : Shape).Idx → EReal
/-- The labels: batch, sample. -/
abbrev Lab : Type := (⟨2, ![16, 1024]⟩ : Shape).Idx → BitVec 32

/-- The inverse temperature, the exact reciprocal of `τ`. -/
def κ : EReal := ((134217728 / 9395241 : ℝ) : EReal)
/-- The temperature. -/
def τ : EReal := ((9395241 / 134217728 : ℝ) : EReal)

/-- The largest entry of a row: the fold of `max` from −∞. -/
def rowMax (l : Fin 2048 → EReal) : EReal := Finset.univ.fold max ⊥ l

/-! ## Sample-major rows -/

/-- The sample of a sample-major row. -/
def sampK (n : Fin 2048) : Fin 1024 := ⟨n.val / 2, by omega⟩
/-- The view of a sample-major row. -/
def viewK (n : Fin 2048) : Fin 2 := ⟨n.val % 2, by omega⟩

/-- The inner product of rows `n` and `j` of batch `b`. -/
def simK (X : Feat) (b : Fin 16) (n j : Fin 2048) : EReal :=
  ∑ d : Fin 128, X (ix4 b (sampK n) (viewK n) d) * X (ix4 b (sampK j) (viewK j) d)
/-- The logit: the inner product times the inverse temperature. -/
def logitK (X : Feat) (b : Fin 16) (n j : Fin 2048) : EReal := simK X b n j * κ
/-- Column `j` is a positive of row `n`: the same label, another row. -/
def posK (L : Lab) (b : Fin 16) (n j : Fin 2048) : Prop := L (ix2 b (sampK n)) = L (ix2 b (sampK j)) ∧ n ≠ j

instance (L : Lab) (b : Fin 16) (n j : Fin 2048) : Decidable (posK L b n j) := by unfold posK; infer_instance

/-- The row's value: the positives' logits summed, over their number (at least 1), minus the row's largest logit, minus the
    logarithm of the sum of the shifted exponentials over the other columns. -/
def outK (X : Feat) (L : Lab) (b : Fin 16) (n : Fin 2048) : EReal :=
  Ideal.div (∑ j : Fin 2048, if posK L b n j then logitK X b n j else 0)
      (max (∑ j : Fin 2048, if posK L b n j then (1 : EReal) else 0) 1)
    - rowMax (logitK X b n)
    - Ideal.log (∑ j : Fin 2048, if n ≠ j then Ideal.exp (logitK X b n j - rowMax (logitK X b n)) else 0)

/-- The loss: minus the mean of all 16 · 2048 rows' values. -/
def GK (X : Feat) (L : Lab) : EReal :=
  ((-1 : ℝ) : EReal) * Ideal.div (0 + ∑ b : Fin 16, ∑ n : Fin 2048, outK X L b n) ((32768 : ℝ) : EReal)

/-! ## View-major rows -/

/-- The sample of a view-major row. -/
def sampR (n : Fin 2048) : Fin 1024 := ⟨n.val % 1024, by omega⟩
/-- The view of a view-major row. -/
def viewR (n : Fin 2048) : Fin 2 := ⟨n.val / 1024, by omega⟩

/-- The inner product of rows `n` and `j` of batch `b`. -/
def simR (X : Feat) (b : Fin 16) (n j : Fin 2048) : EReal :=
  ∑ d : Fin 128, X (ix4 b (sampR n) (viewR n) d) * X (ix4 b (sampR j) (viewR j) d)
/-- The logit: the inner product over the temperature. -/
def logitR (X : Feat) (b : Fin 16) (n j : Fin 2048) : EReal := Ideal.div (simR X b n j) τ
/-- The logit less the row's largest. -/
def shiftR (X : Feat) (b : Fin 16) (n j : Fin 2048) : EReal := logitR X b n j - rowMax (logitR X b n)
/-- 0 on the diagonal, 1 off it. -/
def offR (n j : Fin 2048) : EReal := 1 - (if n = j then (1 : EReal) else 0)
/-- 1 at the positives of row `n`, 0 elsewhere. -/
def maskR (L : Lab) (b : Fin 16) (n j : Fin 2048) : EReal :=
  (if L (ix2 b (sampR n)) = L (ix2 b (sampR j)) then (1 : EReal) else 0) * offR n j
/-- The sum of the shifted exponentials off the diagonal. -/
def sumExpR (X : Feat) (b : Fin 16) (n : Fin 2048) : EReal := 0 + ∑ j : Fin 2048, Ideal.exp (shiftR X b n j) * offR n j
/-- The row's value: the masked sum of `shift − log (sum of exponentials)` over the mask's sum. -/
def outR (X : Feat) (L : Lab) (b : Fin 16) (n : Fin 2048) : EReal :=
  Ideal.div (0 + ∑ j : Fin 2048, maskR L b n j * (shiftR X b n j - Ideal.log (sumExpR X b n)))
    (0 + ∑ j : Fin 2048, maskR L b n j)

/-- The loss: the mean over the batches of minus the mean of the batch's rows' values. -/
def GR (X : Feat) (L : Lab) : EReal :=
  Ideal.div (0 + ∑ b : Fin 16, ((-1 : ℝ) : EReal) * Ideal.div (0 + ∑ n : Fin 2048, outR X L b n) ((2048 : ℝ) : EReal))
    ((16 : ℝ) : EReal)

end Cert.Spec

end
-- ==== Proof.Consts.lean ====
/-
  The float words the two programs spell, as the extended reals they denote: zero, one, minus one, minus infinity, the
  temperature 9395241 / 2²⁷, and the three row counts 16, 2048 and 16 · 2048 = 32768.
-/
import Idealize.ShloMosaic.PureOps.Ideal
import proofs.«114794_j83786222010855_2_alg».proof.Proof.Spec

noncomputable section

namespace Cert.Consts

open Idealize.ShloMosaic

/-- The zero word denotes 0. -/
theorem ofBits_zero : Ideal.ofBits .f32 0x00000000#32 = 0 := by
  simp [Ideal.ofBits, Ideal.ieee]

/-- 1.0 denotes 1. -/
theorem ofBits_one : Ideal.ofBits .f32 0x3F800000#32 = 1 := by
  simp [Ideal.ofBits, Ideal.ieee, -EReal.coe_mul]; norm_num

/-- −1.0 denotes −1. -/
theorem ofBits_neg_one : Ideal.ofBits .f32 0xBF800000#32 = ((-1 : ℝ) : EReal) := by
  simp [Ideal.ofBits, Ideal.ieee, -EReal.coe_mul]; norm_num

/-- The word of −∞ denotes the bottom of the extended reals. -/
theorem ofBits_neg_inf : Ideal.ofBits .f32 0xFF800000#32 = ⊥ := by
  simp [Ideal.ofBits, Ideal.ieee]

/-- The temperature's word denotes 9395241 / 2²⁷. -/
theorem ofBits_tau : Ideal.ofBits .f32 0x3D8F5C29#32 = Cert.Spec.τ := by
  unfold Cert.Spec.τ
  simp [Ideal.ofBits, Ideal.ieee, -EReal.coe_mul]; norm_num

/-- 2048.0 denotes 2048. -/
theorem ofBits_2048 : Ideal.ofBits .f32 0x45000000#32 = ((2048 : ℝ) : EReal) := by
  simp [Ideal.ofBits, Ideal.ieee, -EReal.coe_mul]; norm_num

/-- 16.0 denotes 16. -/
theorem ofBits_16 : Ideal.ofBits .f32 0x41800000#32 = ((16 : ℝ) : EReal) := by
  simp [Ideal.ofBits, Ideal.ieee, -EReal.coe_mul]; norm_num

/-- 32768.0 denotes 32768. -/
theorem ofBits_32768 : Ideal.ofBits .f32 0x47000000#32 = ((32768 : ℝ) : EReal) := by
  simp [Ideal.ofBits, Ideal.ieee, -EReal.coe_mul]; norm_num

end Cert.Consts

end
-- ==== Proof.KLayout.lean ====
/-
  Re-layouts read at an index, at the shapes one grid point uses: a vector of 1024 entries seen as a column, as a row, or
  as a 1 × 1 × 1024 block; a column or a row repeated across a 1024 × 2048 matrix; a row turned into a column and back.
  Each reads the operand at the one index with the same coordinates, the unit axes dropped or put at zero.
-/
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Layout

variable {α : Type}

/-- A vector seen as a column: entry (i, 0) is entry i. -/
theorem col_of_vec {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A 1 × 1 × a block seen as a vector: entry i is entry (0, 0, i). -/
theorem vec_of_block {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A vector seen as a 1 × 1 × a block: entry (0, 0, i) is entry i. -/
theorem block_of_vec {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    rw [hu, hv]; omega)

/-- A row turned into a column: entry (i, 0) is entry (0, i). -/
theorem col_of_row {a : ℕ} (x : (⟨2, ![1, a]⟩ : Shape).Idx → α) (h : (⟨2, ![1, a]⟩ : Shape).Transposes [1, 0] ⟨2, ![a, 1]⟩)
    (i : Fin a) (u : Fin 1) : transpose ⟨2, ![a, 1]⟩ [1, 0] x h (ix2 i u) = x (ix2 u i) :=
  transpose_apply _ x h _ _ fun c => match c with | ⟨0, _⟩ => rfl | ⟨1, _⟩ => rfl

/-- A column turned into a row: entry (0, i) is entry (i, 0). -/
theorem row_of_col {a : ℕ} (x : (⟨2, ![a, 1]⟩ : Shape).Idx → α) (h : (⟨2, ![a, 1]⟩ : Shape).Transposes [1, 0] ⟨2, ![1, a]⟩)
    (u : Fin 1) (i : Fin a) : transpose ⟨2, ![1, a]⟩ [1, 0] x h (ix2 u i) = x (ix2 i u) :=
  transpose_apply _ x h _ _ fun c => match c with | ⟨0, _⟩ => rfl | ⟨1, _⟩ => rfl

/-- A column of 1024 repeated across 2048 columns: entry (i, j) is the column's entry (i, 0). -/
theorem bcast_col (x : (⟨2, ![1024, 1]⟩ : Shape).Idx → α) (h : (⟨2, ![1024, 1]⟩ : Shape).Broadcasts ⟨2, ![1024, 2048]⟩)
    (i : Fin 1024) (j : Fin 2048) : broadcastTo ⟨2, ![1024, 2048]⟩ x h (ix2 i j) = x (ix2 i (0 : Fin 1)) :=
  broadcastTo_apply x h _ _ fun c => match c with | ⟨0, _⟩ => rfl | ⟨1, _⟩ => rfl

/-- A row of 2048 repeated down 1024 rows: entry (i, j) is the row's entry (0, j). -/
theorem bcast_row (x : (⟨2, ![1, 2048]⟩ : Shape).Idx → α) (h : (⟨2, ![1, 2048]⟩ : Shape).Broadcasts ⟨2, ![1024, 2048]⟩)
    (i : Fin 1024) (j : Fin 2048) : broadcastTo ⟨2, ![1024, 2048]⟩ x h (ix2 i j) = x (ix2 (0 : Fin 1) j) :=
  broadcastTo_apply x h _ _ fun c => match c with | ⟨0, _⟩ => rfl | ⟨1, _⟩ => rfl

end Cert.Layout

end
-- ==== Proof.KLogit.lean ====
/-
  One grid point's logits. The point holds a batch's 2048 rows of 128 coordinates (the keys) and 1024 of those rows again
  (the queries). Entry (r, j) of the 1024 × 2048 block of logits is the inner product of query row r and key row j over
  the 128 coordinates, times the inverse temperature: the narrowing of the operands before the product is the identity
  on extended reals, the product accumulates from zero, and the scale is the named constant, which denotes the exact
  reciprocal 134217728 / 9395241 of the temperature.
-/
import proofs.«114794_j83786222010855_2_alg».proof.Proof.Gen.KernelIdeal.Skeleton
import proofs.«114794_j83786222010855_2_alg».proof.Proof.Spec
import proofs.«114794_j83786222010855_2_alg».proof.Proof.Consts
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators
open Idealize.ShloMosaic Idealize.ShloMosaic.ValueIdx

namespace Cert.KernelIdeal.KValue

open Cert.KernelIdeal Cert.KernelIdeal.Gen

/-- The named scale denotes the inverse temperature. -/
theorem scale_eq : Named.named (F := Ideal) Cert.KernelIdeal.κ "inv_temperature" (φ := .f32) 0x41649249#32 = Cert.Spec.κ :=
  IdealRules.named_const.ideal_named_scalar _ _ _ _ rfl

/-- The product's left operand at output (r, j) and contraction index q is (r, q) … -/
theorem lhs_row (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide),
    dif_pos (show (0 : Fin S1024x128.rank) ∈ dot_S1024x128_S2048x128_S1024x2048_1_1_0_0_n_n.lhsNonContracting by decide)]
  rfl
theorem lhs_col (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
/-- … and the right operand is (j, q): both operands are contracted along their coordinates axis. -/
theorem rhs_row (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide),
    dif_pos (show (0 : Fin S2048x128.rank) ∈ dot_S1024x128_S2048x128_S1024x2048_1_1_0_0_n_n.rhsNonContracting by decide)]
  rfl
theorem rhs_col (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- The logits block at (r, j): the inner product of query row r and key row j, times the inverse temperature. -/
theorem logits_apply (keys : Vec Ideal S1x2048x128 .f32) (qs : Vec Ideal S1x1024x128 .f32) (r : Fin 1024) (j : Fin 2048) :
    k0_pay2 (F := Ideal) keys qs (ix2 r j)
      = (∑ d : Fin 128, qs (ix3 (0 : Fin 1) r d) * keys (ix3 (0 : Fin 1) j d)) * Cert.Spec.κ := by
  unfold k0_pay2
  rw [mulf_apply, broadcast_apply, scale_eq]
  congr 1
  simp only [matmul]
  rw [Ideal.matmul_constant_zero_apply,
    ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 r j)
      ((contrEquiv1 dot_S1024x128_S2048x128_S1024x2048_1_1_0_0_n_n 128 rfl rfl).symm k) = ix2 r k :=
    funext fun a => Fin.ext (by
      match a with
      | ⟨0, _⟩ => exact lhs_row _ _
      | ⟨1, _⟩ => exact (lhs_col _ _).trans hk)
  have er : dot_S1024x128_S2048x128_S1024x2048_1_1_0_0_n_n.rhsIdx (ix2 r j)
      ((contrEquiv1 dot_S1024x128_S2048x128_S1024x2048_1_1_0_0_n_n 128 rfl rfl).symm k) = ix2 j k :=
    funext fun a => Fin.ext (by
      match a with
      | ⟨0, _⟩ => exact rhs_row _ _
      | ⟨1, _⟩ => exact (rhs_col _ _).trans hk)
  rw [el, er, truncf_apply, truncf_apply, shapeCast_1ab_ab_apply, shapeCast_1ab_ab_apply]

end Cert.KernelIdeal.KValue

end
-- ==== Proof.KMask.lean ====
/-
  One grid point's two masks, as propositions. At the point with tile coordinate q, row r of the tile is row q · 1024 + r
  of the batch. The off-diagonal word at (r, j) is set exactly when that row is not column j; the positives word is set
  exactly when, besides, the row's label is column j's label. The row's label is entry r of the tile's own 1024 labels and
  column j's is entry j of the batch's 2048.
-/
import proofs.«114794_j83786222010855_2_alg».proof.Proof.Gen.KernelIdeal.Skeleton
import proofs.«114794_j83786222010855_2_alg».proof.Proof.Spec
import proofs.«114794_j83786222010855_2_alg».proof.Proof.Consts
import proofs.«114794_j83786222010855_2_alg».proof.Proof.KLayout
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators
open Idealize.ShloMosaic Idealize.ShloMosaic.ValueIdx

namespace Cert.KernelIdeal.KValue

open Cert.KernelIdeal Cert.KernelIdeal.Gen

variable {F : FTy → Type} [FloatOps F] [Named F]

/-- A comparison for equality sets its bit exactly when the words are equal; for inequality, when they differ. -/
theorem cmpi_eq_one {w : Nat} (x y : BitVec w) : IntOp.cmpi .eq x y = 1#1 ↔ x = y := by
  unfold IntOp.cmpi
  by_cases h : x = y
  · subst h; simp
  · have hb : (x == y) = false := by simpa using h
    simp [hb, h]
theorem cmpi_ne_one {w : Nat} (x y : BitVec w) : IntOp.cmpi .ne x y = 1#1 ↔ x ≠ y := by
  unfold IntOp.cmpi
  by_cases h : x = y
  · subst h; simp
  · have hb : (x == y) = false := by simpa using h
    simp [bne, hb, h]
/-- The conjunction of two bits is set exactly when both are. -/
theorem andi_one (a b : BitVec 1) : IntOp.andi a b = 1#1 ↔ a = 1#1 ∧ b = 1#1 := by
  unfold IntOp.andi
  rcases BitVec.eq_zero_or_eq_one a with rfl | rfl <;> rcases BitVec.eq_zero_or_eq_one b with rfl | rfl <;> decide

/-- The row of the batch that row r of the tile with coordinate `q = i 1` is: `q · 1024 + r`. -/
def tileRow (i : grid0.Coords) (r : Fin 1024) : Fin 2048 :=
  ⟨(i 1).val * 1024 + r.val, by have hq : (i 1).val < 2 := (i 1).isLt; have := r.isLt; omega⟩

/-- The off-diagonal word at (r, j): set iff the tile's row r is not column j. -/
theorem offdiag_apply (i : grid0.Coords) (r : Fin 1024) (j : Fin 2048) :
    k0_pay3 i (ix2 r j) = 1#1 ↔ tileRow i r ≠ j := by
  rw [Ne, Fin.ext_iff]
  show _ ↔ ¬((i 1).val * 1024 + r.val = j.val)
  unfold k0_pay3
  show IntOp.cmpi .ne (IntOp.addi (Scalar.muli (BitVec.ofNat 32 (i 1).val) 1024#32)
      (iota .tc S1024x2048 32 [0] iota_S1024x2048_d0_w32 (ix2 r j)))
      (iota .tc S1024x2048 32 [1] iota_S1024x2048_d1_w32 (ix2 r j)) = 1#1 ↔ _
  rw [iota_single_apply, iota_single_apply, cmpi_ne_one]
  show IntOp.addi (Scalar.muli (BitVec.ofNat 32 (i 1).val) 1024#32) (BitVec.ofNat 32 r.val) ≠ BitVec.ofNat 32 j.val
    ↔ ¬((i 1).val * 1024 + r.val = j.val)
  have hq : (i 1).val < 2 := (i 1).isLt
  have hr := r.isLt
  have hj := j.isLt
  unfold IntOp.addi Scalar.muli IntOp.muli
  rw [Ne, ← BitVec.toNat_inj]
  simp only [BitVec.toNat_add, BitVec.toNat_mul, BitVec.toNat_ofNat]
  omega

/-- The positives word at (r, j): set iff the row's label is column j's and the entry is off the diagonal. -/
theorem pos_apply (i : grid0.Coords) (labs : Vec F S1x1x2048 .i32) (own : Vec F S1x1x1024 .i32) (r : Fin 1024) (j : Fin 2048) :
    k0_pay6 i labs own (ix2 r j) = 1#1
      ↔ own (ix3 (0 : Fin 1) (0 : Fin 1) r) = labs (ix3 (0 : Fin 1) (0 : Fin 1) j) ∧ tileRow i r ≠ j := by
  unfold k0_pay6
  show IntOp.andi (IntOp.cmpi .eq _ _) (k0_pay3 i (ix2 r j)) = 1#1 ↔ _
  rw [andi_one, cmpi_eq_one, offdiag_apply, Cert.Layout.bcast_col, Cert.Layout.col_of_row, shapeCast_a_1a_apply,
    Cert.Layout.vec_of_block, Cert.Layout.bcast_row, shapeCast_1ab_ab_apply]

end Cert.KernelIdeal.KValue

end
-- ==== Proof.KRow.lean ====
/-
  One grid point's row statistics and the value it stores. For row r of the tile, with l j the row's logit at column j:
  the row's maximum is the fold of max from −∞ over the 2048 columns; the sum of exponentials is the sum, over the columns
  off the diagonal, of exp (l j − maximum); the positives' sum and count are the sums of l j and of 1 over the columns that
  carry the row's label and are off the diagonal. The stored entry is
      (positives' sum) / max (count, 1) − maximum − log (sum of exponentials).
-/
import proofs.«114794_j83786222010855_2_alg».proof.Proof.Gen.KernelIdeal.Skeleton
import proofs.«114794_j83786222010855_2_alg».proof.Proof.Spec
import proofs.«114794_j83786222010855_2_alg».proof.Proof.Consts
import proofs.«114794_j83786222010855_2_alg».proof.Proof.KLayout
import proofs.«114794_j83786222010855_2_alg».proof.Proof.KLogit
import proofs.«114794_j83786222010855_2_alg».proof.Proof.KMask
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators
open Idealize.ShloMosaic Idealize.ShloMosaic.ValueIdx

namespace Cert.KernelIdeal.KValue

open Cert.KernelIdeal Cert.KernelIdeal.Gen

/-- The row's logit at column j: the inner product of query row r and key row j, times the inverse temperature. -/
def rowLogit (keys : Vec Ideal S1x2048x128 .f32) (qs : Vec Ideal S1x1024x128 .f32) (r : Fin 1024) (j : Fin 2048) : EReal :=
  (∑ d : Fin 128, qs (ix3 (0 : Fin 1) r d) * keys (ix3 (0 : Fin 1) j d)) * Cert.Spec.κ

/-- The source index of a reduction along the columns: row r with column k put back. -/
theorem lift_row (h : S1024x2048.Reduces [1] S1024) (r : Fin 1024) (k : Fin 2048) : h.lift (ix1 r) k = ix2 r k :=
  funext fun c => Fin.ext (by match c with | ⟨0, _⟩ => rfl | ⟨1, _⟩ => rfl)

/-- A select on a bit that is set exactly when `p` holds is the `if` on `p`. -/
theorem select_iff {α : Type} (c : BitVec 1) (p : Prop) [Decidable p] (h : c = 1#1 ↔ p) (a b : α) :
    Scalar.select c a b = if p then a else b := by
  unfold Scalar.select
  have h' : c = (1 : BitVec 1) ↔ p := h
  by_cases hp : p
  · rw [if_pos hp, if_pos (h'.mpr hp)]
  · rw [if_neg hp, if_neg (fun hc => hp (h'.mp hc))]

/-- A logarithm at an index is the logarithm of the entry. -/
theorem log_apply {s : Shape} {φ : FTy} (a : FVec Ideal s φ) (i : s.Idx) : log a i = Ideal.log (a i) := rfl

/-- A bit widened to a word and read as a signed integer is 1 when set and 0 when not. -/
theorem bit_value (c : BitVec 1) : (((c.setWidth 32).toInt : ℝ) : EReal) = if c = 1#1 then (1 : EReal) else 0 := by
  rcases BitVec.eq_zero_or_eq_one c with rfl | rfl
  · simp
  · simp

/-- A sum along the columns, from zero, at row r: the sum of the row's 2048 entries. -/
theorem rowsum_apply (src : FVec Ideal S1024x2048 .f32) (h : S1024x2048.Reduces [1] S1024) (hφ : FKind.Formats .f32)
    (hacc : (0x00000000#32 : BitVec 32) = 0x00000000#32) (r : Fin 1024) :
    multiReduction .add [1] S1024 src 0x00000000#32 h hφ hacc (ix1 r) = ∑ k : Fin 2048, src (ix2 r k) :=
  (Ideal.multiReduction_add_single src 0x00000000#32 h hφ hacc (ix1 r)).trans
    (Finset.sum_congr rfl fun k _ => congrArg src (lift_row h r k))

/-- A maximum along the columns, from −∞, at row r: the fold of max over the row's 2048 entries. -/
theorem rowfold_apply (src : FVec Ideal S1024x2048 .f32) (h : S1024x2048.Reduces [1] S1024) (hφ : FKind.Formats .f32)
    (hacc : (0xFF800000#32 : BitVec 32) = 0xFF800000#32) (r : Fin 1024) :
    multiReduction .maximumf [1] S1024 src 0xFF800000#32 h hφ hacc (ix1 r) = Cert.Spec.rowMax fun k => src (ix2 r k) := by
  refine (Ideal.multiReduction_maximumf_single src 0xFF800000#32 h hφ hacc (ix1 r)).trans ?_
  unfold Cert.Spec.rowMax
  rw [Ideal.ofBits_def, Cert.Consts.ofBits_neg_inf]
  exact congrArg (Finset.univ.fold max ⊥) (funext fun k => congrArg src (lift_row h r k))

/-- The row's maximum. -/
theorem rowmax_apply (keys : Vec Ideal S1x2048x128 .f32) (qs : Vec Ideal S1x1024x128 .f32) (r : Fin 1024) (u : Fin 1) :
    k0_pay4 (F := Ideal) keys qs (ix2 r u) = Cert.Spec.rowMax (rowLogit keys qs r) := by
  unfold k0_pay4
  rw [Cert.Layout.col_of_vec]
  refine (rowfold_apply _ _ _ _ r).trans ?_
  exact congrArg Cert.Spec.rowMax (funext fun k => logits_apply keys qs r k)

/-- The row's sum of exponentials over the columns off the diagonal. -/
theorem sumexp_apply (i : grid0.Coords) (keys : Vec Ideal S1x2048x128 .f32) (qs : Vec Ideal S1x1024x128 .f32) (r : Fin 1024) (u : Fin 1) :
    k0_pay5 (F := Ideal) i keys qs (ix2 r u)
      = ∑ j : Fin 2048, if tileRow i r ≠ j
          then Ideal.exp (rowLogit keys qs r j - Cert.Spec.rowMax (rowLogit keys qs r)) else 0 := by
  unfold k0_pay5
  rw [Cert.Layout.col_of_vec]
  refine (rowsum_apply _ _ _ _ r).trans ?_
  refine Finset.sum_congr rfl fun k _ => ?_
  rw [select_apply, select_iff _ _ (offdiag_apply i r k), broadcast_apply]
  show (if _ then Ideal.exp (k0_pay2 keys qs (ix2 r k)
      - broadcastTo S1024x2048 (k0_pay4 keys qs) broadcasts_S1024x1_S1024x2048 (ix2 r k)) else Ideal.ofBits .f32 0x00000000#32) = _
  rw [Cert.Layout.bcast_col, rowmax_apply, logits_apply, Cert.Consts.ofBits_zero]; rfl

/-- The sum of the row's logits over its positives. -/
theorem possum_apply (i : grid0.Coords) (keys : Vec Ideal S1x2048x128 .f32) (qs : Vec Ideal S1x1024x128 .f32)
    (labs : Vec Ideal S1x1x2048 .i32) (own : Vec Ideal S1x1x1024 .i32) (r : Fin 1024) :
    k0_pay7 (F := Ideal) i keys qs labs own (ix1 r)
      = ∑ j : Fin 2048, if own (ix3 (0 : Fin 1) (0 : Fin 1) r) = labs (ix3 (0 : Fin 1) (0 : Fin 1) j) ∧ tileRow i r ≠ j
          then rowLogit keys qs r j else 0 := by
  unfold k0_pay7
  refine (rowsum_apply _ _ _ _ r).trans ?_
  refine Finset.sum_congr rfl fun k _ => ?_
  rw [select_apply, select_iff _ _ (pos_apply i labs own r k), broadcast_apply, logits_apply]
  show (if _ then _ else Ideal.ofBits .f32 0x00000000#32) = _
  rw [Cert.Consts.ofBits_zero]; rfl

/-- The stored entry from the four row statistics. -/
theorem stored_apply (mx se : FVec Ideal S1024x1 .f32) (pm : IVec S1024x2048 1) (ps : FVec Ideal S1024 .f32) (u v : Fin 1) (r : Fin 1024) :
    k0_pay1 (F := Ideal) mx se pm ps (ix3 u v r)
      = Ideal.div (ps (ix1 r)) (max (∑ j : Fin 2048, if pm (ix2 r j) = 1#1 then (1 : EReal) else 0) 1)
          - mx (ix2 r (0 : Fin 1)) - Ideal.log (se (ix2 r (0 : Fin 1))) := by
  unfold k0_pay1
  rw [Cert.Layout.block_of_vec, shapeCast_1a_a_apply, Cert.Layout.row_of_col, subf_apply, subf_apply, divf_apply,
    maximumf_apply, broadcast_apply, log_apply, Cert.Layout.col_of_vec, Cert.Layout.col_of_vec, rowsum_apply,
    Ideal.ofBits_def, Cert.Consts.ofBits_one]
  have hs : (∑ k : Fin 2048, sitofp (F := Ideal) .f32 (extui 32 pm natLt_1_32) (ix2 r k))
      = ∑ j : Fin 2048, if pm (ix2 r j) = 1#1 then (1 : EReal) else 0 :=
    Finset.sum_congr rfl fun k _ => bit_value (pm (ix2 r k))
  rw [hs]

end Cert.KernelIdeal.KValue

end
-- ==== Proof.KPoint.lean ====
/-
  One grid point's stored block as a function of the two blocks it is given: the batch's 2048 rows of features and the
  batch's 2048 labels. The point loads the whole feature block as the keys and rows q · 1024 … q · 1024 + 1023 of it again as
  the queries, and likewise the whole label block and that stretch of it; its one store leaves, at entry r, the value of
  the batch's row n = q · 1024 + r:
      (sum of row n's logits over its positives) / max (number of positives, 1) − (row n's largest logit)
        − log (sum over the columns j ≠ n of exp (logit − largest)).
-/
import proofs.«114794_j83786222010855_2_alg».proof.Proof.Gen.KernelIdeal.Skeleton
import proofs.«114794_j83786222010855_2_alg».proof.Proof.Spec
import proofs.«114794_j83786222010855_2_alg».proof.Proof.Consts
import proofs.«114794_j83786222010855_2_alg».proof.Proof.Gen.KernelIdeal.Frame
import proofs.«114794_j83786222010855_2_alg».proof.Proof.KRow
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators
open Idealize.ShloMosaic Idealize.ShloMosaic.ValueIdx

open Idealize.ShloMosaic.TcCoe Idealize.SL.Sem

namespace Cert.KernelIdeal.KValue

open Cert.KernelIdeal Cert.KernelIdeal.Gen

section Piece

variable {F : FTy → Type} [FloatOps F] [Named F]

theorem hz3 : (![0, 0, 0] : Fin 3 → Nat) = fun _ => 0 := funext fun a => by fin_cases a <;> rfl

/-- The tile's query rows: rows q · 1024 … of the feature block. -/
def tileRows (i : grid0.Coords) (x0 : Vec F S1x2048x128 .f32) : Vec F S1x1024x128 .f32 :=
  View.ld x0 (Rect.unit (s := S1x2048x128) (k0_off1 i) S1x1024x128.size (k0_off1_inb i))
/-- The tile's own labels: entries q · 1024 … of the label block. -/
def tileLabs (i : grid0.Coords) (x1 : Vec F S1x1x2048 .i32) : Vec F S1x1x1024 .i32 :=
  View.ld x1 (Rect.unit (s := S1x1x2048) (k0_off2 i) S1x1x1024.size (k0_off2_inb i))

/-- What the point's one store leaves in the output block: the stored value of the four row statistics, computed from
    the whole blocks and the tile's stretches of them. -/
theorem out_A (c : Dev nD) (i : grid0.Coords) (a2 : Memref sig .tc .vmem S1x2048x128 .f32) (h2 : a2.IsWhole)
    (a3 : Memref sig .tc .vmem S1x1x2048 .i32) (h3 : a3.IsWhole) (a4 : Memref sig .tc .vmem S1x1x1024 .f32) (h4 : a4.IsWhole)
    (x0 : Vec F S1x2048x128 .f32) (x1 : Vec F S1x1x2048 .i32) :
    out0_A_2 c i a2 h2 a3 h3 a4 h4 x0 x1
      = k0_pay1 (k0_pay4 x0 (tileRows i x0)) (k0_pay5 i x0 (tileRows i x0)) (k0_pay6 i x1 (tileLabs i x1))
          (k0_pay7 i x0 (tileRows i x0) x1 (tileLabs i x1)) := by
  unfold out0_A_2
  rw [View.read_writes_eq_canon _ _ _ (cover0_A_2 c i a2 h2 a3 h3 a4 h4 x0 x1)]
  unfold kernelRun0_A
  dsimp only
  sl_unfold_words
  rw [View.canon_unit_zero hz3]
  simp only [View.readAt_eq_ld, h2.read_unread, h3.read_unread, View.ld_unit_zero (S := S1x2048x128) hz3,
    View.ld_unit_zero (S := S1x1x2048) hz3]
  rfl

/-- The tile's offset along the rows is q · 1024. -/
theorem tile_off (i : grid0.Coords) :
    (Scalar.indexCast (Scalar.muli (BitVec.ofNat 32 (i 1).val) 1024#32)).toNat = (i 1).val * 1024 := by
  have hq : (i 1).val < 2 := (i 1).isLt
  unfold Scalar.indexCast Scalar.muli IntOp.muli
  simp only [BitVec.toNat_mul, BitVec.toNat_ofNat]
  omega

/-- Query row r is row q · 1024 + r of the feature block. -/
theorem tileRows_apply (i : grid0.Coords) (x0 : Vec F S1x2048x128 .f32) (u : Fin 1) (r : Fin 1024) (d : Fin 128) :
    tileRows i x0 (ix3 u r d) = x0 (ix3 (0 : Fin 1) (tileRow i r) d) := by
  unfold tileRows
  show x0 ((Rect.unit (s := S1x2048x128) (k0_off1 i) S1x1024x128.size (k0_off1_inb i)).idx (ix3 u r d)) = _
  refine congrArg x0 (funext fun a => Fin.ext ?_)
  have hu : u.val = 0 := by omega
  match a with
  | ⟨0, _⟩ => show 0 + 1 * u.val = 0; omega
  | ⟨1, _⟩ =>
    show (Scalar.indexCast (Scalar.muli (BitVec.ofNat 32 (i 1).val) 1024#32)).toNat + 1 * r.val = (i 1).val * 1024 + r.val
    rw [tile_off]; omega
  | ⟨2, _⟩ => show 0 + 1 * d.val = d.val; omega

/-- The tile's label r is label q · 1024 + r of the label block. -/
theorem tileLabs_apply (i : grid0.Coords) (x1 : Vec F S1x1x2048 .i32) (u v : Fin 1) (r : Fin 1024) :
    tileLabs i x1 (ix3 u v r) = x1 (ix3 (0 : Fin 1) (0 : Fin 1) (tileRow i r)) := by
  unfold tileLabs
  show x1 ((Rect.unit (s := S1x1x2048) (k0_off2 i) S1x1x1024.size (k0_off2_inb i)).idx (ix3 u v r)) = _
  refine congrArg x1 (funext fun a => Fin.ext ?_)
  have hu : u.val = 0 := by omega
  have hv : v.val = 0 := by omega
  match a with
  | ⟨0, _⟩ => show 0 + 1 * u.val = 0; omega
  | ⟨1, _⟩ => show 0 + 1 * v.val = 0; omega
  | ⟨2, _⟩ =>
    show (Scalar.indexCast (Scalar.muli (BitVec.ofNat 32 (i 1).val) 1024#32)).toNat + 1 * r.val = (i 1).val * 1024 + r.val
    rw [tile_off]; omega

end Piece

/-- An `if` on equivalent conditions. -/
theorem ite_iff {α : Type} {p q : Prop} [Decidable p] [Decidable q] (h : p ↔ q) (a b : α) :
    (if p then a else b) = if q then a else b := by
  by_cases hq : q
  · rw [if_pos hq, if_pos (h.mpr hq)]
  · rw [if_neg hq, if_neg (fun hp => hq (h.mp hp))]

/-- The logit of rows n and j of a feature block. -/
def blockLogit (x0 : Vec Ideal S1x2048x128 .f32) (n j : Fin 2048) : EReal :=
  (∑ d : Fin 128, x0 (ix3 (0 : Fin 1) n d) * x0 (ix3 (0 : Fin 1) j d)) * Cert.Spec.κ

/-- Row n's value from a feature block and a label block. -/
def pointVal (x0 : Vec Ideal S1x2048x128 .f32) (x1 : Vec Ideal S1x1x2048 .i32) (n : Fin 2048) : EReal :=
  Ideal.div
      (∑ j : Fin 2048, if x1 (ix3 (0 : Fin 1) (0 : Fin 1) n) = x1 (ix3 (0 : Fin 1) (0 : Fin 1) j) ∧ n ≠ j then blockLogit x0 n j else 0)
      (max (∑ j : Fin 2048, if x1 (ix3 (0 : Fin 1) (0 : Fin 1) n) = x1 (ix3 (0 : Fin 1) (0 : Fin 1) j) ∧ n ≠ j then (1 : EReal) else 0) 1)
    - Cert.Spec.rowMax (blockLogit x0 n)
    - Ideal.log (∑ j : Fin 2048, if n ≠ j then Ideal.exp (blockLogit x0 n j - Cert.Spec.rowMax (blockLogit x0 n)) else 0)

/-- The point's output block at entry r is row q · 1024 + r's value. -/
theorem point_apply (c : Dev nD) (i : grid0.Coords) (a2 : Memref sig .tc .vmem S1x2048x128 .f32) (h2 : a2.IsWhole)
    (a3 : Memref sig .tc .vmem S1x1x2048 .i32) (h3 : a3.IsWhole) (a4 : Memref sig .tc .vmem S1x1x1024 .f32) (h4 : a4.IsWhole)
    (x0 : Vec Ideal S1x2048x128 .f32) (x1 : Vec Ideal S1x1x2048 .i32) (u v : Fin 1) (r : Fin 1024) :
    out0_A_2 (F := Ideal) c i a2 h2 a3 h3 a4 h4 x0 x1 (ix3 u v r) = pointVal x0 x1 (tileRow i r) := by
  have hl : rowLogit x0 (tileRows i x0) r = blockLogit x0 (tileRow i r) := funext fun j => by
    unfold rowLogit blockLogit
    simp only [tileRows_apply]
  rw [out_A, stored_apply, possum_apply, rowmax_apply, sumexp_apply, hl, tileLabs_apply]
  unfold pointVal
  congr 3
  refine congrArg (fun s => max s (1 : EReal)) (Finset.sum_congr rfl fun j _ => ite_iff ?_ _ _)
  rw [pos_apply, tileLabs_apply]

end Cert.KernelIdeal.KValue

end
-- ==== Proof.KHost.lean ====
/-
  What the host code around the kernel does to the arrays, read element by element.

  The features [16, 1024, 2, 128] are reshaped to [16, 2048, 128]: both list the same elements in row-major order, and the
  position ((b · 1024 + s) · 2 + v) · 128 + d is (b · 2048 + n) · 128 + d for n = 2 s + v, so row `n` of batch `b` is
  sample `n / 2`, view `n % 2`. The labels [16, 1024] are repeated along a new last axis of length 2, reshaped to
  [16, 2048] (position (b · 1024 + s) · 2 + v = b · 2048 + n) and given a unit middle axis: row `n` carries the label of
  sample `n / 2`. The kernel's [16, 1, 2048] result is reshaped to [16, 2048], summed over both axes from zero, divided
  by 32768 and multiplied by −1.
-/
import proofs.«114794_j83786222010855_2_alg».proof.KernelIdeal
import proofs.«114794_j83786222010855_2_alg».proof.Proof.Spec
import proofs.«114794_j83786222010855_2_alg».proof.Proof.Consts
import Idealize.ShloMosaic.Lib.Pipeline.Value
import Idealize.ShloMosaic.Lib.ValueIdx
import Idealize.ShloMosaic.PureOps.Ideal.Laws

open scoped BigOperators

namespace Cert.KernelIdeal.KHost

open Cert.KernelIdeal Idealize.ShloMosaic Idealize.ShloMosaic.ValueIdx

/-- The reshaped features at row `n` of batch `b` are the features of sample `n / 2`, view `n % 2`. -/
theorem rows_at {α : Type} (x : S16x1024x2x128.Idx → α) (h : S16x1024x2x128.ShapeCasts S16x2048x128)
    (b : Fin 16) (n : Fin 2048) (d : Fin 128) :
    shapeCast S16x2048x128 x h (ix3 b n d) = x (ix4 b (Cert.Spec.sampK n) (Cert.Spec.viewK n) d) := by
  refine shapeCast_apply x h (ix3 b n d) (ix4 b (Cert.Spec.sampK n) (Cert.Spec.viewK n) d) ?_
  rw [Shape.rowMajor_val_four, Shape.rowMajor_val_three]
  show ((b.val * 1024 + n.val / 2) * 2 + n.val % 2) * 128 + d.val = (b.val * 2048 + n.val) * 128 + d.val
  omega

/-- The labels, repeated once per view and laid out by rows, carry at row `n` of batch `b` the label of sample `n / 2`. -/
theorem labels_at (x1 : IVec S16x1024 32)
    (h1 : S16x1024.BroadcastsInDim S16x1024x2 (![0, 1] : Fin 2 → Fin S16x1024x2.rank))
    (h2 : S16x1024x2.ShapeCasts S16x2048)
    (h3 : S16x2048.BroadcastsInDim S16x1x2048 (![0, 2] : Fin 2 → Fin S16x1x2048.rank))
    (b : Fin 16) (u : Fin 1) (n : Fin 2048) :
    broadcastInDim S16x1x2048 ![0, 2] h3 (shapeCast S16x2048 (broadcastInDim S16x1024x2 ![0, 1] h1 x1) h2) (ix3 b u n)
      = x1 (ix2 b (Cert.Spec.sampK n)) := by
  refine (broadcastInDim_apply _ h3 _ (ix3 b u n) (ix2 b n) (fun a => ?_)).trans ?_
  · match a with
    | ⟨0, _⟩ => rfl
    | ⟨1, _⟩ => rfl
  refine (shapeCast_apply _ h2 (ix2 b n) (ix3 b (Cert.Spec.sampK n) (Cert.Spec.viewK n)) ?_).trans ?_
  · rw [Shape.rowMajor_val_three, Shape.rowMajor_val_two]
    show (b.val * 1024 + n.val / 2) * 2 + n.val % 2 = b.val * 2048 + n.val
    omega
  refine broadcastInDim_apply _ h1 x1 (ix3 b (Cert.Spec.sampK n) (Cert.Spec.viewK n)) (ix2 b (Cert.Spec.sampK n)) (fun a => ?_)
  match a with
  | ⟨0, _⟩ => rfl
  | ⟨1, _⟩ => rfl

/-- The host's last steps: minus one times the quotient by 32768 of zero plus the sum of all the rows' values. -/
theorem tail_eq (out : FVec Ideal S16x1x2048 .f32) (h : S16x1x2048.ShapeCasts S16x2048)
    (hr : S16x2048.ReducesTo [0, 1] S_) (hS : 0 < S_.numel) :
    mulf (constant (F := Ideal) S_ .f32 0xBF800000#32)
      (Host.divf (F := Ideal)
        (Host.reduceAdd (F := Ideal) (shapeCast S16x2048 out h) (constant (F := Ideal) S_ .f32 0x00000000#32) hr hS)
        (constant (F := Ideal) S_ .f32 0x47000000#32))
      = fun _ => ((-1 : ℝ) : EReal) *
          Ideal.div (0 + ∑ b : Fin 16, ∑ n : Fin 2048, out (ix3 b (0 : Fin 1) n)) ((32768 : ℝ) : EReal) := by
  funext j
  have hcell : ∀ (b : Fin 16) (n : Fin 2048), shapeCast S16x2048 out h (ix2 b n) = out (ix3 b (0 : Fin 1) n) := by
    intro b n
    refine shapeCast_apply out h (ix2 b n) (ix3 b (0 : Fin 1) n) ?_
    rw [Shape.rowMajor_val_three, Shape.rowMajor_val_two]
    show (b.val * 1 + 0) * 2048 + n.val = b.val * 2048 + n.val
    omega
  simp only [mulf, Host.divf, Host.reduceAdd, constant, Ideal.mulf_def, Ideal.hostDivf_def, Ideal.ofBits_def,
    Ideal.hostReduceAdd_def]
  rw [Ideal.hostReduceAdd_total hr (fun b => b.elim0), sum_idx2]
  rw [Cert.Consts.ofBits_zero, Cert.Consts.ofBits_neg_one, Cert.Consts.ofBits_32768]
  simp only [hcell]

end Cert.KernelIdeal.KHost
-- ==== Proof.KArray.lean ====
/-
  From grid points to the result. The grid has a point for each batch b and each half q of the batch's 2048 rows. The
  point reads batch b's 2048 × 128 block of the features laid out sample-major (row n is sample n / 2, view n % 2) and
  batch b's 2048 labels, each sample's label repeated for its two views; it writes entries q · 1024 … q · 1024 + 1023 of
  batch b's row of the 16 × 1 × 2048 output. So entry (b, 0, n) of the output is row n's value in batch b, every entry
  is written by the point (b, n / 1024), and the host's last lines turn the output into minus the mean of all its entries.
-/
import proofs.«114794_j83786222010855_2_alg».proof.Proof.Gen.KernelIdeal.Skeleton
import proofs.«114794_j83786222010855_2_alg».proof.Proof.Spec
import proofs.«114794_j83786222010855_2_alg».proof.Proof.Consts
import proofs.«114794_j83786222010855_2_alg».proof.Proof.Gen.KernelIdeal.Frame
import proofs.«114794_j83786222010855_2_alg».proof.Proof.KPoint
import proofs.«114794_j83786222010855_2_alg».proof.Proof.KHost
import Idealize.ShloMosaic.Lib.StableHlo.Run
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators
open Idealize.ShloMosaic Idealize.ShloMosaic.ValueIdx

open Idealize.ShloMosaic.TcCoe Idealize.SL.Sem
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The features and the labels the program is given. -/
abbrev argX (c : Dev nD) : Cert.Spec.Feat := m ((c : Thread nD τ).loc main_arg0)
abbrev argL (c : Dev nD) : Cert.Spec.Lab := m ((c : Thread nD τ).loc main_arg1)

/-- The point's batch. -/
abbrev batchOf (t : Fin cfg0.N) : Fin 16 := grid0.coords t 0

/-- The feature rows the grid reads are the features re-laid sample-major. -/
theorem V_rows (c : Dev nD) : (V m c main_v0 : S16x2048x128.Idx → EReal)
    = shapeCast S16x2048x128 (argX m c) shapeCasts_S16x1024x2x128_S16x2048x128 := by
  show StableHlo.after hostOps0 (fun b => m (c, b)) (Proc.devRef .tc main_v0) = _
  after_results; rfl

/-- The labels the grid reads are the labels with each sample's repeated for its two views. -/
theorem V_labs (c : Dev nD) : (V m c main_v3 : S16x1x2048.Idx → BitVec 32)
    = broadcastInDim S16x1x2048 ![0, 2] bcast_S16x2048_S16x1x2048_0_2
        (shapeCast S16x2048 (broadcastInDim S16x1024x2 ![0, 1] bcast_S16x1024_S16x1024x2_0_1 (argL m c)) shapeCasts_S16x1024x2_S16x2048) := by
  show StableHlo.after hostOps0 (fun b => m (c, b)) (Proc.devRef .tc main_v3) = _
  after_results; rfl

/-- Where each window's block sits at each point: the inputs' at batch b, the output's at batch b and half q. -/
theorem idx_facts : ∀ t : Fin cfg0.N,
    win0_0.index t (0 : Fin 3) = (grid0.coords t 0).val ∧ win0_0.index t (1 : Fin 3) = 0 ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 3) = (grid0.coords t 0).val ∧ win0_2.index t (1 : Fin 3) = 0
    ∧ win0_2.index t (2 : Fin 3) = (grid0.coords t 1).val :=
  (by decide +kernel : ∀ t : Fin grid0.N, _)

/-- Every (batch, half) is some point's. -/
theorem idx_onto : ∀ (b : Fin 16) (q : Fin 2), ∃ t : Fin cfg0.N, (grid0.coords t 0).val = b.val ∧ (grid0.coords t 1).val = q.val :=
  (by decide +kernel : ∀ (b : Fin 16) (q : Fin 2), ∃ t : Fin grid0.N, (grid0.coords t 0).val = b.val ∧ (grid0.coords t 1).val = q.val)

/-- The point's feature block at (0, n, d) is the sample-major features at (b, n, d). -/
theorem iblk0_apply (c : Dev nD) (t : Fin cfg0.N) (n : Fin 2048) (d : Fin 128) :
    iblk m c 0 t (ix3 (0 : Fin 1) n d) = argX m c (ix4 (batchOf t) (Cert.Spec.sampK n) (Cert.Spec.viewK n) d) := by
  unfold iblk
  rw [View.read_apply]
  show V m c main_v0 _ = _
  rw [V_rows, ← KHost.rows_at (argX m c) shapeCasts_S16x1024x2x128_S16x2048x128 (batchOf t) n d]
  refine congrArg _ (funext fun a => Fin.ext ?_)
  obtain ⟨e0, e1, e2, -⟩ := idx_facts t
  match a with
  | ⟨0, _⟩ => show win0_0.index t (0 : Fin 3) * 1 + 1 * 0 = (grid0.coords t 0).val; omega
  | ⟨1, _⟩ => show win0_0.index t (1 : Fin 3) * 2048 + 1 * n.val = n.val; omega
  | ⟨2, _⟩ => show win0_0.index t (2 : Fin 3) * 128 + 1 * d.val = d.val; omega

/-- The point's label block at (0, 0, n) is the label of row n's sample in batch b. -/
theorem iblk1_apply (c : Dev nD) (t : Fin cfg0.N) (n : Fin 2048) :
    iblk m c 1 t (ix3 (0 : Fin 1) (0 : Fin 1) n) = argL m c (ix2 (batchOf t) (Cert.Spec.sampK n)) := by
  unfold iblk
  rw [View.read_apply]
  show V m c main_v3 _ = _
  rw [V_labs, ← KHost.labels_at (argL m c) bcast_S16x1024_S16x1024x2_0_1 shapeCasts_S16x1024x2_S16x2048
    bcast_S16x2048_S16x1x2048_0_2 (batchOf t) (0 : Fin 1) n]
  refine congrArg _ (funext fun a => Fin.ext ?_)
  obtain ⟨-, -, -, e0, e1, e2, -⟩ := idx_facts t
  match a with
  | ⟨0, _⟩ => show win0_1.index t (0 : Fin 3) * 1 + 1 * 0 = (grid0.coords t 0).val; omega
  | ⟨1, _⟩ => show win0_1.index t (1 : Fin 3) * 1 + 1 * 0 = 0; omega
  | ⟨2, _⟩ => show win0_1.index t (2 : Fin 3) * 2048 + 1 * n.val = n.val; omega

/-- Row n's value from blocks that are batch b's rows and labels is the specification's value of row n in batch b. -/
theorem pointVal_eq (X : Cert.Spec.Feat) (L : Cert.Spec.Lab) (b : Fin 16) (x0 : Vec Ideal S1x2048x128 .f32)
    (x1 : Vec Ideal S1x1x2048 .i32)
    (h0 : ∀ (n : Fin 2048) (d : Fin 128), x0 (ix3 (0 : Fin 1) n d) = X (ix4 b (Cert.Spec.sampK n) (Cert.Spec.viewK n) d))
    (h1 : ∀ n : Fin 2048, x1 (ix3 (0 : Fin 1) (0 : Fin 1) n) = L (ix2 b (Cert.Spec.sampK n))) (n : Fin 2048) :
    pointVal x0 x1 n = Cert.Spec.outK X L b n := by
  have hl : blockLogit x0 n = Cert.Spec.logitK X b n := funext fun j => by
    unfold blockLogit Cert.Spec.logitK Cert.Spec.simK
    simp only [h0]
  unfold pointVal Cert.Spec.outK
  simp only [hl, h1]
  rfl

/-- What the point leaves in the output block at entry (·, ·, r): row q · 1024 + r's value in batch b. -/
theorem outsAt_apply (c : Dev nD) (t : Fin cfg0.N) (y : S1x1x1024.Idx) :
    outsAt0 m c t y = Cert.Spec.outK (argX m c) (argL m c) (batchOf t) (tileRow (grid0.coords t) (y 2)) := by
  obtain ⟨u, v, r, rfl⟩ : ∃ (u v : Fin 1) (r : Fin 1024), y = ix3 u v r := ⟨y 0, y 1, y 2, eq_ix3 y⟩
  unfold outsAt0
  refine (point_apply c (grid0.coords t) (ms0_0 t) (hs0_0 t) (ms0_1 t) (hs0_1 t) (ms0_2 t) (hs0_2 t)
    (iblk m c 0 t) (iblk m c 1 t) u v r).trans ?_
  exact pointVal_eq (argX m c) (argL m c) (batchOf t) (iblk m c 0 t) (iblk m c 1 t)
    (fun n d => iblk0_apply m c t n d) (fun n => iblk1_apply m c t n) (tileRow (grid0.coords t) r)

/-- The output array: entry (b, ·, n) is row n's value in batch b. -/
def outArr (X : Cert.Spec.Feat) (L : Cert.Spec.Lab) : S16x1x2048.Idx → EReal := fun i => Cert.Spec.outK X L (i 0) (i 2)

/-- What point t writes back is its block of the output array. -/
theorem flushed_eq (c : Dev nD) (t : Fin cfg0.N) :
    (dats m 0 c).flushed 2 t = ((cfg0.win 2).blk t).view.read (Elt Ideal) (outArr (argX m c) (argL m c)) := by
  show (cfg0.win 2).cut (grid0.coords t) ((dats m 0 c).after 2 t) = _
  rw [after0_2]
  funext y
  refine (outsAt_apply m c t y).trans ?_
  obtain ⟨-, -, -, -, -, -, e0, e1, e2⟩ := idx_facts t
  have hy0 : (y 0).val < 1 := (y 0).isLt
  have hy2 : (y 2).val < 1024 := (y 2).isLt
  show Cert.Spec.outK (argX m c) (argL m c) (batchOf t) (tileRow (grid0.coords t) (y 2))
    = Cert.Spec.outK (argX m c) (argL m c) ((((cfg0.win 2).blk t).view.emb y) 0) ((((cfg0.win 2).blk t).view.emb y) 2)
  have hb : ((((cfg0.win 2).blk t).view.emb y) 0 : Fin 16) = batchOf t := Fin.ext (by
    show win0_2.index t (0 : Fin 3) * 1 + 1 * (y 0).val = (grid0.coords t 0).val; omega)
  have hn : ((((cfg0.win 2).blk t).view.emb y) 2 : Fin 2048) = tileRow (grid0.coords t) (y 2) := Fin.ext (by
    show win0_2.index t (2 : Fin 3) * 1024 + 1 * (y 2).val = (grid0.coords t 1).val * 1024 + (y 2).val; omega)
  rw [hb, hn]

/-- An index of the output array is in point t's block iff each coordinate is in the block's range on its axis. -/
theorem mem_blk (t : Fin cfg0.N) (i : S16x1x2048.Idx) :
    i ∈ ((cfg0.win 2).blk t).view.set
      ↔ ∀ a : Fin 3, win0_2.index t a * S1x1x1024.size a ≤ (i a).val ∧ (i a).val < win0_2.index t a * S1x1x1024.size a + S1x1x1024.size a := by
  show i ∈ ((View.whole main_v4).slice (win0_2.rect t)).set ↔ _
  rw [View.set_slice_whole, Rect.mem_set_unit]
  exact Iff.rfl

/-- Every entry of the output array is written back: entry (b, 0, n) by the point of batch b and half n / 1024. -/
theorem covered (i : S16x1x2048.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 2048 := (i 2).isLt
  obtain ⟨t, hb, hq⟩ := idx_onto ⟨(i 0).val, h0⟩ ⟨(i 2).val / 1024, by omega⟩
  obtain ⟨-, -, -, -, -, -, e0, e1, e2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1
              simp only at hb; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024
              simp only at hq; omega

/-- So the output array ends as the rows' values. -/
theorem final (c : Dev nD) : (dats m 0 c).arrAt 2 cfg0.N = outArr (argX m c) (argL m c) :=
  (dats m 0 c).arrAt_eq_of_cover 2 (outArr (argX m c) (argL m c)) (fun t _ => flushed_eq m c t) covered

/-- The host's last lines on that array: minus the mean of all its entries, the sample-major form of the loss. -/
theorem tail_val (c : Dev nD) :
    Pipeline.afterTail₀ cfgs (dats m) 0 (V0 m) [hostOps1] c main_v8 = fun _ => Cert.Spec.GK (argX m c) (argL m c) := by
  unfold Pipeline.afterTail₀
  show StableHlo.after hostOps1 _ (Proc.devRef .tc main_v8) = _
  after_results
  have e := (Pipeline.withArrays_arr spec0 launch0.win.arr_inj c (V0 m c)
    (fun w => (dats m 0 c).arrAt w cfg0.N) 2).trans (final m c)
  have e' : Pipeline.withArrays (cfgs 0).spec c (V0 m c) (fun w => (dats m 0 c).arrAt w (cfgs 0).N)
      (Proc.devRef .tc main_v4) = outArr (argX m c) (argL m c) := e
  rw [e']
  exact (KHost.tail_eq (outArr (argX m c) (argL m c)) shapeCasts_S16x1x2048_S16x2048 reducesTo_S16x2048_S_d0_1 h_S_).trans rfl

/-- The run, read: every weakly fair execution ends with the result at the sample-major form of the loss of the
    argument arrays, and the argument arrays unchanged. -/
theorem run : θ_run defs (onTc (τ := τ) (main (F := Ideal))) ⟨m, fun _ => 0, ρ⟩ fun r => ∀ c : Dev nD,
      r.2.mem ((c.tc : Thread nD τ).loc main_v8) = (fun _ => Cert.Spec.GK (argX m c) (argL m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (tail_val m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefLogit.lean ====
/-
  The view-major reference, first part: from the features to the shifted logits.

  Swapping the sample and view axes and flattening them puts view `v`, sample `s` of a batch at row `v · 1024 + s`, so
  row `n` of the flattened batch is sample `n % 1024` seen in view `n / 1024`. The contraction over the 128 coordinates
  of two rows is their inner product, the quotient by the temperature is the logit, the reduction with `max` from −∞
  over the columns is the row's largest logit, and the difference of the two is the shifted logit.
-/
import proofs.«114794_j83786222010855_2_alg».proof.Proof.Gen.ReferenceIdeal.Read
import proofs.«114794_j83786222010855_2_alg».proof.Proof.Spec
import proofs.«114794_j83786222010855_2_alg».proof.Proof.Consts

noncomputable section

open scoped BigOperators

namespace Cert.ReferenceIdeal.RefValue

open Cert.ReferenceIdeal Cert.ReferenceIdeal.Gen Cert.ReferenceIdeal.Read Cert.Spec Idealize.ShloMosaic
  Idealize.ShloMosaic.ValueIdx

/-- Row `n`, coordinate `d` of the flattened batch `b` is sample `n % 1024` in view `n / 1024`. -/
theorem rows_at (x0 : Feat) (b : Fin 16) (n : Fin 2048) (d : Fin 128) :
    val_main_v1 (F := Ideal) x0 (ix3 b n d) = x0 (ix4 b (sampR n) (viewR n) d) := by
  rw [val_main_v1_apply, val_main_v0_apply]
  refine congrArg x0 (funext fun a => Fin.ext ?_)
  have hb := b.isLt; have hn := n.isLt; have hd := d.isLt
  match a with
  | ⟨0, _⟩ => show ((b.val * 2048 + n.val) * 128 + d.val) / 262144 = b.val; omega
  | ⟨1, _⟩ => show ((b.val * 2048 + n.val) * 128 + d.val) / 128 % 1024 = n.val % 1024; omega
  | ⟨2, _⟩ => show ((b.val * 2048 + n.val) * 128 + d.val) / 131072 % 2 = n.val / 1024; omega
  | ⟨3, _⟩ => show ((b.val * 2048 + n.val) * 128 + d.val) % 128 = d.val; omega

/-- The contraction over the coordinates is the inner product of rows `n` and `j`. -/
theorem sim_at (x0 : Feat) (b : Fin 16) (n j : Fin 2048) :
    val_main_v2 (F := Ideal) x0 (ix3 b n j) = simR x0 b n j := by
  rw [val_main_v2_apply]
  unfold simR
  refine Finset.sum_congr rfl fun k _ => ?_
  have el : lidx_main_v2 (ix3 b n j) k = ix3 b n k :=
    funext fun a => Fin.ext (by match a with | ⟨0, _⟩ => rfl | ⟨1, _⟩ => rfl | ⟨2, _⟩ => rfl)
  have er : ridx_main_v2 (ix3 b n j) k = ix3 b j k :=
    funext fun a => Fin.ext (by match a with | ⟨0, _⟩ => rfl | ⟨1, _⟩ => rfl | ⟨2, _⟩ => rfl)
  rw [el, er, rows_at, rows_at]

/-- The quotient by the temperature is the logit. -/
theorem logit_at (x0 : Feat) (b : Fin 16) (n j : Fin 2048) :
    val_main_v4 (F := Ideal) x0 (ix3 b n j) = logitR x0 b n j := by
  rw [val_main_v4_apply, val_main_v3_apply, val_main_cst_apply, sim_at]
  simp only [Ideal.hostDivf_def, Ideal.ofBits_def, Cert.Consts.ofBits_tau]
  rfl

/-- Dropping the column axis of a batch's matrix leaves its batch and row axes. -/
theorem dropCol : S16x2048x2048.Reduces [2] S16x2048 := by decide

/-- The reduction with `max` from −∞ over the columns is the row's largest logit. -/
theorem rowMax_at (x0 : Feat) (b : Fin 16) (n : Fin 2048) :
    val_main_v5 (F := Ideal) x0 (ix2 b n) = rowMax (logitR x0 b n) := by
  unfold val_main_v5
  rw [Host.reduce_eq_fold_single _ _ _ reducesTo_S16x2048x2048_S16x2048_d2 dropCol h_S_ (ix2 b n)]
  rw [val_main_cst_0_apply]
  simp only [Ideal.ofBits_def, Cert.Consts.ofBits_neg_inf]
  unfold rowMax
  have e : (val_main_v4 (F := Ideal) x0 ∘ dropCol.lift (ix2 b n)) = logitR x0 b n := by
    funext k
    exact (congrArg (val_main_v4 (F := Ideal) x0) (funext fun a => Fin.ext (by
      match a with | ⟨0, _⟩ => rfl | ⟨1, _⟩ => rfl | ⟨2, _⟩ => rfl))).trans (logit_at x0 b n k)
  rw [e]
  rfl

/-- The logit less the row's largest. -/
theorem shift_at (x0 : Feat) (b : Fin 16) (n j : Fin 2048) :
    val_main_v8 (F := Ideal) x0 (ix3 b n j) = shiftR x0 b n j := by
  rw [val_main_v8_apply, val_main_v7_apply, val_main_v6_apply, logit_at]
  have e : idx_main_v6 (idx_main_v7 (ix3 b n j)) = ix2 b n :=
    funext fun a => Fin.ext (by match a with | ⟨0, _⟩ => rfl | ⟨1, _⟩ => rfl)
  rw [e, rowMax_at]
  simp only [Ideal.subf_def]
  rfl

end Cert.ReferenceIdeal.RefValue

end
-- ==== Proof.RefMask.lean ====
/-
  The view-major reference, second part: the mask of the positives.

  Two samples' labels are compared as 32-bit words and the outcome bit is read as the float 0 or 1, giving a
  1024 × 1024 matrix per batch. That matrix is tiled 2 × 2: it is laid out with two unit axes, those axes are stretched to
  extent 2, and the result is flattened, so the entry at row `n`, column `j` of the 2048 × 2048 matrix is the entry at
  `n % 1024`, `j % 1024` of the small one — both flattenings keep the row-major position. The diagonal is cut out by
  comparing a row counter with a column counter, again as words: both are below 2³², so the words agree exactly when the
  row is the column. The mask is the product of the two.
-/
import proofs.«114794_j83786222010855_2_alg».proof.Proof.Gen.ReferenceIdeal.Read
import proofs.«114794_j83786222010855_2_alg».proof.Proof.Spec
import proofs.«114794_j83786222010855_2_alg».proof.Proof.Consts
import Idealize.ShloMosaic.Lib.ValueIdxRank6

noncomputable section

open scoped BigOperators

namespace Cert.ReferenceIdeal.RefValue

open Cert.ReferenceIdeal Cert.ReferenceIdeal.Gen Cert.ReferenceIdeal.Read Cert.Spec Idealize.ShloMosaic
  Idealize.ShloMosaic.ValueIdx

/-- The bit of a comparison of two words for equality, read as a float: 1 where they agree, 0 elsewhere. -/
theorem eqBit (a c : BitVec 32) :
    FloatOps.uitofp (F := Ideal) .f32 (IntOp.cmpi .eq a c) = if a = c then (1 : EReal) else 0 := by
  show (((IntOp.cmpi .eq a c).toNat : ℝ) : EReal) = _
  unfold IntOp.cmpi
  by_cases h : a = c
  · simp [h]
  · simp [h]

/-- Samples `p` and `q` of batch `b` carry the same label: 1, else 0. -/
theorem same_at (x1 : Lab) (b : Fin 16) (p q : Fin 1024) :
    val_main_v14 (F := Ideal) x1 (ix3 b p q) = if x1 (ix2 b p) = x1 (ix2 b q) then (1 : EReal) else 0 := by
  rw [val_main_v14_apply, val_main_v13_apply, val_main_v11_apply, val_main_v12_apply, val_main_v9_apply,
    val_main_v10_apply]
  have e1 : idx_main_v9 (idx_main_v11 (ix3 b p q)) = ix2 b p :=
    funext fun a => Fin.ext (by match a with | ⟨0, _⟩ => rfl | ⟨1, _⟩ => rfl)
  have e2 : idx_main_v10 (idx_main_v12 (ix3 b p q)) = ix2 b q :=
    funext fun a => Fin.ext (by match a with | ⟨0, _⟩ => rfl | ⟨1, _⟩ => rfl)
  rw [e1, e2]
  exact eqBit _ _

/-- The 2 × 2 tiling: row `n`, column `j` of the large matrix is row `n % 1024`, column `j % 1024` of the small one. -/
theorem tile_at (x1 : Lab) (b : Fin 16) (n j : Fin 2048) :
    val_main_v17 (F := Ideal) x1 (ix3 b n j) = val_main_v14 (F := Ideal) x1 (ix3 b (sampR n) (sampR j)) := by
  have hb := b.isLt; have hn := n.isLt; have hj := j.isLt
  have p1 : (S1x16x2x1024x2x1024.rowMajor (ix6 (0 : Fin 1) b (viewR n) (sampR n) (viewR j) (sampR j))).val
      = (S16x2048x2048.rowMajor (ix3 b n j)).val := by
    rw [Shape.rowMajor_val_six, Shape.rowMajor_val_three]
    show ((((0 * 16 + b.val) * 2 + n.val / 1024) * 1024 + n.val % 1024) * 2 + j.val / 1024) * 1024 + j.val % 1024
      = (b.val * 2048 + n.val) * 2048 + j.val
    omega
  have p2 : (S16x1024x1024.rowMajor (ix3 b (sampR n) (sampR j))).val
      = (S1x16x1x1024x1x1024.rowMajor
          (idx_main_v16 (ix6 (0 : Fin 1) b (viewR n) (sampR n) (viewR j) (sampR j)))).val := by
    rw [Shape.rowMajor_val_three, Shape.rowMajor_val_six]
    show (b.val * 1024 + n.val % 1024) * 1024 + j.val % 1024
      = ((((0 * 16 + b.val) * 1 + 0) * 1024 + n.val % 1024) * 1 + 0) * 1024 + j.val % 1024
    omega
  unfold val_main_v17
  rw [shapeCast_apply (val_main_v16 (F := Ideal) x1) shapeCasts_S1x16x2x1024x2x1024_S16x2048x2048 (ix3 b n j) _ p1,
    val_main_v16_apply]
  unfold val_main_v15
  rw [shapeCast_apply (val_main_v14 (F := Ideal) x1) shapeCasts_S16x1024x1024_S1x16x1x1024x1x1024 _ _ p2]

/-- The row counter and the column counter agree as words exactly when the row is the column. -/
theorem off_at (n j : Fin 2048) : val_main_v25 (F := Ideal) (ix2 n j) = offR n j := by
  rw [val_main_v25_apply, val_main_v24_apply, val_main_cst_1_apply, val_main_v23_apply, val_main_v22_apply,
    val_main_v21_apply, val_main_v18_apply, val_main_v20_apply, val_main_c_apply, val_main_v19_apply, eqBit]
  have hiff : (IntOp.addi (BitVec.ofNat 32 ((ix2 n j) 0).val) 0#32 = BitVec.ofNat 32 ((ix2 n j) 1).val) ↔ n = j := by
    show (BitVec.ofNat 32 n.val + 0#32 = BitVec.ofNat 32 j.val) ↔ n = j
    rw [BitVec.add_zero]
    constructor
    · intro h
      have h' := congrArg BitVec.toNat h
      simp only [BitVec.toNat_ofNat] at h'
      have hn := n.isLt; have hj := j.isLt
      exact Fin.ext (by omega)
    · rintro rfl; rfl
  simp only [hiff, Ideal.subf_def, Ideal.ofBits_def, Cert.Consts.ofBits_one]
  rfl

/-- The off-diagonal matrix is the same in every batch. -/
theorem offMask_at (b : Fin 16) (n j : Fin 2048) : val_main_v27 (F := Ideal) (ix3 b n j) = offR n j := by
  rw [val_main_v27_apply, val_main_v26_apply]
  have e : idx_main_v26 (idx_main_v27 (ix3 b n j)) = ix2 n j :=
    funext fun a => Fin.ext (by match a with | ⟨0, _⟩ => rfl | ⟨1, _⟩ => rfl)
  rw [e, off_at]

/-- Its second copy, the one that multiplies the exponentials. -/
theorem offExp_at (b : Fin 16) (n j : Fin 2048) : val_main_v31 (F := Ideal) (ix3 b n j) = offR n j := by
  rw [val_main_v31_apply, val_main_v30_apply]
  have e : idx_main_v30 (idx_main_v31 (ix3 b n j)) = ix2 n j :=
    funext fun a => Fin.ext (by match a with | ⟨0, _⟩ => rfl | ⟨1, _⟩ => rfl)
  rw [e, off_at]

/-- The mask: 1 at the positives of row `n`, 0 elsewhere. -/
theorem mask_at (x1 : Lab) (b : Fin 16) (n j : Fin 2048) :
    val_main_v28 (F := Ideal) x1 (ix3 b n j) = maskR x1 b n j := by
  rw [val_main_v28_apply, tile_at, same_at, offMask_at]
  simp only [Ideal.mulf_def]
  rfl

end Cert.ReferenceIdeal.RefValue

end
-- ==== Proof.RefValue.lean ====
/-
  The view-major reference, third part: from the shifted logits and the mask to the loss.

  Off the diagonal the shifted logits are exponentiated and summed along the row; the logarithm of that sum is taken
  from every shifted logit of the row. The row's value is the masked sum of those differences over the mask's own sum.
  A batch's loss is minus the mean of its 2048 rows' values, and the result is the mean of the 16 batches' losses.
  Every sum starts from the float zero, which is why each closed form carries a leading `0 +`.
-/
import proofs.«114794_j83786222010855_2_alg».proof.Proof.Gen.ReferenceIdeal.Read
import proofs.«114794_j83786222010855_2_alg».proof.Proof.Spec
import proofs.«114794_j83786222010855_2_alg».proof.Proof.Consts
import proofs.«114794_j83786222010855_2_alg».proof.Proof.RefLogit
import proofs.«114794_j83786222010855_2_alg».proof.Proof.RefMask

noncomputable section

open scoped BigOperators

namespace Cert.ReferenceIdeal.RefValue

open Cert.ReferenceIdeal Cert.ReferenceIdeal.Gen Cert.ReferenceIdeal.Read Cert.Spec Idealize.ShloMosaic
  Idealize.ShloMosaic.ValueIdx

/-- The exponential of the shifted logit, kept off the diagonal. -/
theorem expOff_at (x0 : Feat) (b : Fin 16) (n j : Fin 2048) :
    val_main_v32 (F := Ideal) x0 (ix3 b n j) = Ideal.exp (shiftR x0 b n j) * offR n j := by
  rw [val_main_v32_apply, val_main_v29_apply, shift_at, offExp_at]
  simp only [Ideal.mulf_def, Ideal.hostUnary_exp_def]

/-- The row's sum of those exponentials. -/
theorem sumExp_at (x0 : Feat) (b : Fin 16) (n : Fin 2048) :
    val_main_v33 (F := Ideal) x0 (ix2 b n) = sumExpR x0 b n := by
  rw [val_main_v33_apply, val_main_cst_2_apply]
  simp only [Ideal.ofBits_def, Cert.Consts.ofBits_zero]
  unfold sumExpR
  refine congrArg (_ + ·) (Finset.sum_congr rfl fun k _ => ?_)
  have e : idx_main_v33 (ix2 b n) k = ix3 b n k :=
    funext fun a => Fin.ext (by match a with | ⟨0, _⟩ => rfl | ⟨1, _⟩ => rfl | ⟨2, _⟩ => rfl)
  rw [e, expOff_at]

/-- The shifted logit less the logarithm of the row's sum of exponentials. -/
theorem logProb_at (x0 : Feat) (b : Fin 16) (n j : Fin 2048) :
    val_main_v37 (F := Ideal) x0 (ix3 b n j) = shiftR x0 b n j - Ideal.log (sumExpR x0 b n) := by
  rw [val_main_v37_apply, val_main_v36_apply, val_main_v35_apply, val_main_v34_apply, shift_at]
  have e : idx_main_v34 (idx_main_v36 (ix3 b n j)) = ix2 b n :=
    funext fun a => Fin.ext (by match a with | ⟨0, _⟩ => rfl | ⟨1, _⟩ => rfl)
  rw [e, sumExp_at]
  simp only [Ideal.subf_def, Ideal.hostUnary_log_def]

/-- The masked sum of those differences along the row. -/
theorem num_at (x0 : Feat) (x1 : Lab) (b : Fin 16) (n : Fin 2048) :
    val_main_v39 (F := Ideal) x0 x1 (ix2 b n)
      = 0 + ∑ j : Fin 2048, maskR x1 b n j * (shiftR x0 b n j - Ideal.log (sumExpR x0 b n)) := by
  rw [val_main_v39_apply, val_main_cst_3_apply]
  simp only [Ideal.ofBits_def, Cert.Consts.ofBits_zero]
  refine congrArg (_ + ·) (Finset.sum_congr rfl fun k _ => ?_)
  have e : idx_main_v39 (ix2 b n) k = ix3 b n k :=
    funext fun a => Fin.ext (by match a with | ⟨0, _⟩ => rfl | ⟨1, _⟩ => rfl | ⟨2, _⟩ => rfl)
  rw [e, val_main_v38_apply, mask_at, logProb_at]
  simp only [Ideal.mulf_def]

/-- The mask's own sum along the row. -/
theorem den_at (x1 : Lab) (b : Fin 16) (n : Fin 2048) :
    val_main_v40 (F := Ideal) x1 (ix2 b n) = 0 + ∑ j : Fin 2048, maskR x1 b n j := by
  rw [val_main_v40_apply, val_main_cst_4_apply]
  simp only [Ideal.ofBits_def, Cert.Consts.ofBits_zero]
  refine congrArg (_ + ·) (Finset.sum_congr rfl fun k _ => ?_)
  have e : idx_main_v40 (ix2 b n) k = ix3 b n k :=
    funext fun a => Fin.ext (by match a with | ⟨0, _⟩ => rfl | ⟨1, _⟩ => rfl | ⟨2, _⟩ => rfl)
  rw [e, mask_at]

/-- The row's value. -/
theorem out_at (x0 : Feat) (x1 : Lab) (b : Fin 16) (n : Fin 2048) :
    val_main_v41 (F := Ideal) x0 x1 (ix2 b n) = outR x0 x1 b n := by
  rw [val_main_v41_apply, num_at, den_at]
  simp only [Ideal.hostDivf_def]
  rfl

/-- A batch's loss: minus the mean of its rows' values. -/
theorem batch_at (x0 : Feat) (x1 : Lab) (b : Fin 16) :
    val_main_v46 (F := Ideal) x0 x1 (ix1 b)
      = ((-1 : ℝ) : EReal) * Ideal.div (0 + ∑ n : Fin 2048, outR x0 x1 b n) ((2048 : ℝ) : EReal) := by
  have hs : ∑ k : Fin 2048, val_main_v41 (F := Ideal) x0 x1 (idx_main_v42 (ix1 b) k) = ∑ n : Fin 2048, outR x0 x1 b n :=
    Finset.sum_congr rfl fun k _ => by
      have e : idx_main_v42 (ix1 b) k = ix2 b k :=
        funext fun a => Fin.ext (by match a with | ⟨0, _⟩ => rfl | ⟨1, _⟩ => rfl)
      rw [e, out_at]
  rw [val_main_v46_apply, val_main_v45_apply, val_main_cst_7_apply, val_main_v44_apply, val_main_v43_apply,
    val_main_cst_6_apply, val_main_v42_apply, val_main_cst_5_apply, hs]
  simp only [Ideal.mulf_def, Ideal.hostDivf_def, Ideal.ofBits_def, Cert.Consts.ofBits_neg_one, Cert.Consts.ofBits_2048,
    Cert.Consts.ofBits_zero]

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- The reference's result is the mean over the batches of the batches' losses. -/
theorem result_at (x0 : Feat) (x1 : Lab) (i : S_.Idx) : val_main_v48 (F := Ideal) x0 x1 i = GR x0 x1 := by
  have hs : ∑ j : S16.Idx, val_main_v46 (F := Ideal) x0 x1 j
      = ∑ b : Fin 16, ((-1 : ℝ) : EReal) * Ideal.div (0 + ∑ n : Fin 2048, outR x0 x1 b n) ((2048 : ℝ) : EReal) :=
    Fintype.sum_equiv idxEquiv1 _ _ fun j => by
      obtain ⟨b, rfl⟩ : ∃ b, j = ix1 b := ⟨j 0, eq_ix1 j⟩
      exact batch_at x0 x1 b
  rw [val_main_v48_apply, val_main_v47_apply, val_main_cst_9_apply, val_main_cst_8_apply, hs]
  simp only [Ideal.hostDivf_def, Ideal.ofBits_def, Cert.Consts.ofBits_16, Cert.Consts.ofBits_zero]
  rfl

/-- The reference's result array, a scalar, holds the view-major closed form of the loss. -/
theorem result_eq (x0 : (⟨S16x1024x2x128, .f32⟩ : BufTy).Contents (Elt Ideal))
    (x1 : (⟨S16x1024, .i32⟩ : BufTy).Contents (Elt Ideal)) :
    val_main_v48 (F := Ideal) x0 x1 = fun _ => GR x0 x1 :=
  funext fun i => result_at x0 x1 i

end Cert.ReferenceIdeal.RefValue

end
-- ==== Proof.MathReal.lean ====
/-
  Finite sums and finite maxima of real numbers, seen inside the extended reals: the sum of the coercions is the coercion
  of the sum, the fold of `max` from −∞ over a nonempty family of coerced reals is again a coerced real, and such a
  fold does not change when the family is reindexed by a bijection.
-/
import Idealize.ShloMosaic.PureOps.Ideal

open scoped BigOperators

namespace Cert.MathReal

/-- The sum of the coercions of finitely many reals is the coercion of their sum. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The same for a sum in which each term is either kept or replaced by zero. -/
theorem coe_sum_ite {ι : Type*} (s : Finset ι) (p : ι → Prop) [DecidablePred p] (f : ι → ℝ) :
    ∑ i ∈ s, (if p i then (f i : EReal) else 0) = ((∑ i ∈ s, if p i then f i else 0 : ℝ) : EReal) := by
  rw [← coe_sum]
  refine Finset.sum_congr rfl (fun i _ => ?_)
  split_ifs <;> simp

/-- The largest of a nonempty finite family of reals, computed in the extended reals from −∞, is a real. -/
theorem fold_max_coe {ι : Type*} (s : Finset ι) (hs : s.Nonempty) (l : ι → ℝ) :
    ∃ m : ℝ, s.fold max ⊥ (fun j => (l j : EReal)) = (m : EReal) := by
  induction hs using Finset.Nonempty.cons_induction with
  | singleton a => exact ⟨l a, by rw [Finset.fold_singleton]; exact max_bot_right _⟩
  | cons a s ha hs ih =>
    obtain ⟨m, hm⟩ := ih
    exact ⟨max (l a) m, by
      rw [Finset.fold_cons ha, hm]; exact (EReal.coe_strictMono.monotone.map_max).symm⟩

/-- The largest entry of a family does not depend on the order in which the entries are listed. -/
theorem fold_max_equiv {ι : Type*} [Fintype ι] (e : ι ≃ ι) (f : ι → EReal) :
    Finset.univ.fold max ⊥ (fun j => f (e j)) = Finset.univ.fold max ⊥ f := by
  have h := Finset.fold_map (op := max) (b := (⊥ : EReal)) (f := f) (g := e.toEmbedding) (s := Finset.univ)
  rw [Finset.map_univ_equiv] at h
  exact h.symm

end Cert.MathReal
-- ==== Proof.MathRow.lean ====
/-
  One row of the contrastive loss, written in two ways, for a row whose logits are real numbers.

  The row has real logits `l j`, a diagonal column `n`, and a set of positives `p`, which is a label test `q` cut down to
  the columns other than `n`; there is at least one positive. `M` is any real (it will be the row's largest logit).
  With `P` the sum of the positives' logits, `c ≥ 1` their number, and `S > 0` the sum over the columns `j ≠ n` of
  `exp (l j − M)`, the first form is `P / c − M − log S`. The second form multiplies by 0/1 masks and subtracts inside
  the sum: `(Σ_{positives} (l j − M − log S)) / c = (P − c · (M + log S)) / c`, which is the same real number.
-/
import proofs.«114794_j83786222010855_2_alg».proof.Proof.MathReal

open scoped BigOperators

namespace Cert.MathRow

open Idealize.ShloMosaic Cert.MathReal

variable {ι : Type*} [Fintype ι] [DecidableEq ι]

/-- The first form: the positives' logits summed, over their number (at least 1), minus the largest logit, minus the
    logarithm of the sum of the shifted exponentials over the other columns. -/
noncomputable def formK (l : ι → EReal) (n : ι) (p : ι → Prop) [DecidablePred p] : EReal :=
  Ideal.div (∑ j, if p j then l j else 0) (max (∑ j, if p j then (1 : EReal) else 0) 1)
    - Finset.univ.fold max ⊥ l
    - Ideal.log (∑ j, if n ≠ j then Ideal.exp (l j - Finset.univ.fold max ⊥ l) else 0)

/-- The second form: the masked sum of `shifted logit − log (sum of exponentials off the diagonal)` over the mask's sum. -/
noncomputable def formR (l : ι → EReal) (n : ι) (q : ι → Prop) [DecidablePred q] : EReal :=
  Ideal.div
    (0 + ∑ j, ((if q j then (1 : EReal) else 0) * (1 - (if n = j then (1 : EReal) else 0))) *
      ((l j - Finset.univ.fold max ⊥ l) -
        Ideal.log (0 + ∑ k, Ideal.exp (l k - Finset.univ.fold max ⊥ l) * (1 - (if n = k then (1 : EReal) else 0)))))
    (0 + ∑ j, (if q j then (1 : EReal) else 0) * (1 - (if n = j then (1 : EReal) else 0)))

/-- `1 − [n = j]` is the indicator of `n ≠ j`. -/
theorem off_eq (n j : ι) : (1 : EReal) - (if n = j then (1 : EReal) else 0) = if n ≠ j then 1 else 0 := by
  by_cases h : n = j
  · rw [if_pos h, if_neg (not_not.mpr h), ← EReal.coe_one, ← EReal.coe_sub, sub_self, EReal.coe_zero]
  · rw [if_neg h, if_pos h, ← EReal.coe_one, ← EReal.coe_zero, ← EReal.coe_sub, sub_zero]

/-- The product of the label indicator and the off-diagonal indicator is the indicator of the positives. -/
theorem mask_eq (n : ι) (p q : ι → Prop) [DecidablePred p] [DecidablePred q]
    (hp : ∀ j, p j ↔ (q j ∧ n ≠ j)) (j : ι) :
    (if q j then (1 : EReal) else 0) * (1 - (if n = j then (1 : EReal) else 0)) = if p j then 1 else 0 := by
  rw [off_eq]
  by_cases hq : q j <;> by_cases hn : n = j <;> simp [hp j, hq, hn]

/-- Both forms of a row with real logits are the coercion of the same real number. -/
theorem forms_real (l : ι → ℝ) (n : ι) (p q : ι → Prop) [DecidablePred p] [DecidablePred q]
    (hp : ∀ j, p j ↔ (q j ∧ n ≠ j)) (hex : ∃ j, p j) (hne : (Finset.univ : Finset ι).Nonempty) :
    ∃ r : ℝ, formK (fun j => (l j : EReal)) n p = (r : EReal) ∧ formR (fun j => (l j : EReal)) n q = (r : EReal) := by
  obtain ⟨m, hm⟩ := fold_max_coe Finset.univ hne l
  obtain ⟨j0, hj0⟩ := hex
  have hj0n : n ≠ j0 := ((hp j0).mp hj0).2
  -- the three real sums
  obtain ⟨P, hP⟩ : ∃ P : ℝ, P = ∑ j, if p j then l j else 0 := ⟨_, rfl⟩
  obtain ⟨c, hc⟩ : ∃ c : ℝ, c = ∑ j, if p j then (1 : ℝ) else 0 := ⟨_, rfl⟩
  obtain ⟨S, hS⟩ : ∃ S : ℝ, S = ∑ j, if n ≠ j then Real.exp (l j - m) else 0 := ⟨_, rfl⟩
  have hc1 : 1 ≤ c := by
    rw [hc]
    have := Finset.single_le_sum (f := fun j => if p j then (1 : ℝ) else 0)
      (fun j _ => by split_ifs <;> norm_num) (Finset.mem_univ j0)
    simpa [hj0] using this
  have hc0 : c ≠ 0 := by linarith
  have hSpos : 0 < S := by
    rw [hS]
    have := Finset.single_le_sum (f := fun j => if n ≠ j then Real.exp (l j - m) else 0)
      (fun j _ => by split_ifs <;> positivity) (Finset.mem_univ j0)
    have h0 : 0 < Real.exp (l j0 - m) := Real.exp_pos _
    simp only [hj0n, ne_eq, not_false_eq_true, if_true] at this
    linarith
  -- the sums in the extended reals
  have eP : ∑ j, (if p j then (l j : EReal) else 0) = (P : EReal) := by rw [hP, coe_sum_ite]
  have ec : ∑ j, (if p j then (1 : EReal) else 0) = (c : EReal) := by
    rw [hc, ← coe_sum_ite]; simp
  have eS : ∑ j, (if n ≠ j then Ideal.exp ((l j : EReal) - (m : EReal)) else 0) = (S : EReal) := by
    rw [hS, ← coe_sum_ite]
    refine Finset.sum_congr rfl (fun j _ => ?_)
    rw [← EReal.coe_sub, Ideal.exp_coe]
  have elog : Ideal.log (S : EReal) = ((Real.log S : ℝ) : EReal) := by
    rw [Ideal.log_coe, if_neg (not_le.mpr hSpos)]
  refine ⟨P * (1 / c) - m - Real.log S, ?_, ?_⟩
  · unfold formK
    rw [hm, eP, ec, eS, elog, max_eq_left (by exact_mod_cast hc1), Ideal.div_coe hc0]
    simp only [← EReal.coe_mul, ← EReal.coe_sub]
  · unfold formR
    rw [hm]
    simp only [mask_eq n p q hp]
    simp only [off_eq, mul_ite, mul_one, mul_zero, zero_add]
    rw [eS, elog, ec, Ideal.div_coe hc0]
    have eN : ∑ j, (if p j then (1 : EReal) else 0) * ((l j : EReal) - (m : EReal) - ((Real.log S : ℝ) : EReal))
        = ((∑ j, if p j then (l j - m - Real.log S) else 0 : ℝ) : EReal) := by
      rw [← coe_sum_ite]
      refine Finset.sum_congr rfl (fun j _ => ?_)
      rw [ite_mul, one_mul, zero_mul, ← EReal.coe_sub, ← EReal.coe_sub]
    rw [eN, ← EReal.coe_mul]
    congr 1
    have hN : (∑ j, if p j then (l j - m - Real.log S) else 0 : ℝ) = P - c * (m + Real.log S) := by
      rw [hP, hc, Finset.sum_mul, ← Finset.sum_sub_distrib]
      refine Finset.sum_congr rfl (fun j _ => ?_)
      split_ifs <;> ring
    rw [hN]
    field_simp
    ring

end Cert.MathRow
-- ==== Proof.MathPerm.lean ====
/-
  The two row orders. A batch's 2048 rows are listed sample-major (row `n` is sample `n / 2`, view `n % 2`) or
  view-major (row `n` is view `n / 1024`, sample `n % 1024`). The bijection `rowPerm` sends the view-major row `n` to
  the sample-major row `2 · (n % 1024) + n / 1024`, which is the same (sample, view) pair. Under it the inner products,
  the logits (as `κ` is the reciprocal of `τ`), the label tests and the diagonal all correspond, so every sum over the
  columns of a view-major row is the sum over the columns of the corresponding sample-major row, listed in another order.
-/
import proofs.«114794_j83786222010855_2_alg».proof.Proof.Spec
import proofs.«114794_j83786222010855_2_alg».proof.Proof.MathRow

open scoped BigOperators

namespace Cert.MathPerm

open Idealize.ShloMosaic Idealize.ShloMosaic.ValueIdx Cert.MathReal Cert.MathRow Cert.Spec

/-- The second form of a row does not change when its columns (and with them the diagonal) are reindexed by a bijection. -/
theorem formR_equiv {ι : Type*} [Fintype ι] [DecidableEq ι] (e : ι ≃ ι) (l : ι → EReal) (n : ι)
    (q : ι → Prop) [DecidablePred q] :
    formR (fun j => l (e j)) n (fun j => q (e j)) = formR l (e n) q := by
  unfold formR
  rw [fold_max_equiv e l]
  have hS : (∑ k, Ideal.exp (l (e k) - Finset.univ.fold max ⊥ l) * (1 - (if n = k then (1 : EReal) else 0)))
      = ∑ k, Ideal.exp (l k - Finset.univ.fold max ⊥ l) * (1 - (if e n = k then (1 : EReal) else 0)) :=
    Fintype.sum_equiv e _ _ (fun k => by simp only [e.injective.eq_iff])
  rw [hS]
  congr 1
  · congr 1
    exact Fintype.sum_equiv e _ _ (fun j => by simp only [e.injective.eq_iff])
  · congr 1
    exact Fintype.sum_equiv e _ _ (fun j => by simp only [e.injective.eq_iff])

/-- The view-major row `n` and the sample-major row `rowPerm n` are the same (sample, view) pair. -/
def rowPerm : Fin 2048 ≃ Fin 2048 where
  toFun n := ⟨2 * (n.val % 1024) + n.val / 1024, by omega⟩
  invFun k := ⟨(k.val % 2) * 1024 + k.val / 2, by omega⟩
  left_inv n := Fin.ext (by dsimp only; omega)
  right_inv k := Fin.ext (by dsimp only; omega)

theorem sampK_rowPerm (n : Fin 2048) : sampK (rowPerm n) = sampR n :=
  Fin.ext (by simp only [sampK, sampR, rowPerm, Equiv.coe_fn_mk]; omega)

theorem viewK_rowPerm (n : Fin 2048) : viewK (rowPerm n) = viewR n :=
  Fin.ext (by simp only [viewK, viewR, rowPerm, Equiv.coe_fn_mk]; omega)

/-- The inner products correspond. -/
theorem simR_eq (X : Feat) (b : Fin 16) (n j : Fin 2048) :
    simR X b n j = simK X b (rowPerm n) (rowPerm j) := by
  unfold simR simK
  simp only [sampK_rowPerm, viewK_rowPerm]

/-- The quotient by the temperature is the product with the inverse temperature, so the logits correspond. -/
theorem logitR_eq (X : Feat) (b : Fin 16) (n j : Fin 2048) :
    logitR X b n j = logitK X b (rowPerm n) (rowPerm j) := by
  unfold logitR logitK τ κ
  rw [Ideal.div_coe (by norm_num), simR_eq]
  congr 2
  norm_num

/-- The label test of a sample-major row. -/
def labK (L : Lab) (b : Fin 16) (n j : Fin 2048) : Prop := L (ix2 b (sampK n)) = L (ix2 b (sampK j))

instance (L : Lab) (b : Fin 16) (n j : Fin 2048) : Decidable (labK L b n j) := by unfold labK; infer_instance

/-- The value of the sample-major row is the first form of its logits. -/
theorem outK_eq (X : Feat) (L : Lab) (b : Fin 16) (n : Fin 2048) :
    outK X L b n = formK (logitK X b n) n (posK L b n) := rfl

/-- The value of the view-major row `n` is the second form of the logits of the sample-major row `rowPerm n`. -/
theorem outR_eq (X : Feat) (L : Lab) (b : Fin 16) (n : Fin 2048) :
    outR X L b n = formR (logitK X b (rowPerm n)) (rowPerm n) (labK L b (rowPerm n)) := by
  rw [← formR_equiv rowPerm]
  have h1 : (fun j => logitK X b (rowPerm n) (rowPerm j)) = logitR X b n :=
    funext (fun j => (logitR_eq X b n j).symm)
  rw [h1]
  unfold outR formR sumExpR shiftR maskR offR rowMax labK
  simp only [sampK_rowPerm]

end Cert.MathPerm
-- ==== Proof.Math.lean ====
/-
  The two closed forms of the loss agree on finite features.

  Finite features make every inner product, hence every logit, a real number; a row's two forms are then the same real
  (the one-row identity), each row has a positive (the other view of its sample), the view-major rows are the sample-major
  rows in another order, and a mean over all 16 · 2048 rows is the mean of the 16 batches' means.
-/
import proofs.«114794_j83786222010855_2_alg».proof.Proof.MathPerm

open scoped BigOperators

namespace Cert.Spec

open Idealize.ShloMosaic Idealize.ShloMosaic.ValueIdx Cert.MathReal Cert.MathRow Cert.MathPerm

/-- The sample-major row holding the other view of the same sample. -/
def partner (n : Fin 2048) : Fin 2048 := ⟨n.val + 1 - 2 * (n.val % 2), by omega⟩

/-- The other view of a row's sample is a positive of the row: the same sample, so the same label, and another row. -/
theorem posK_partner (L : Lab) (b : Fin 16) (n : Fin 2048) : posK L b n (partner n) := by
  unfold posK
  refine ⟨?_, ?_⟩
  · have h : sampK (partner n) = sampK n := Fin.ext (by simp only [sampK, partner]; omega)
    rw [h]
  · intro h
    have h2 := congrArg Fin.val h
    simp only [partner] at h2
    omega

/-- With real features the logits of a sample-major row are real. -/
theorem logitK_real (X : Feat) (x : (⟨4, ![16, 1024, 2, 128]⟩ : Shape).Idx → ℝ) (hx : ∀ i, X i = (x i : EReal))
    (b : Fin 16) (n : Fin 2048) :
    logitK X b n = fun j => (((∑ d : Fin 128, x (ix4 b (sampK n) (viewK n) d) * x (ix4 b (sampK j) (viewK j) d))
      * (134217728 / 9395241) : ℝ) : EReal) := by
  funext j
  unfold logitK simK κ
  simp only [hx, ← EReal.coe_mul, coe_sum]

theorem GK_eq_GR (X : Feat) (L : Lab) (hfin : ∀ i, ∃ r : ℝ, X i = (r : EReal)) : GK X L = GR X L := by
  choose x hx using hfin
  -- every row's two forms are one real number
  have key : ∀ (b : Fin 16) (n : Fin 2048), ∃ r : ℝ,
      outK X L b n = (r : EReal) ∧ formR (logitK X b n) n (labK L b n) = (r : EReal) := by
    intro b n
    rw [outK_eq, logitK_real X x hx b n]
    exact forms_real _ n (posK L b n) (labK L b n) (fun j => Iff.rfl)
      ⟨partner n, posK_partner L b n⟩ ⟨n, Finset.mem_univ n⟩
  choose r hrK hrR using key
  have hR : ∀ (b : Fin 16) (n : Fin 2048), outR X L b n = ((r b (rowPerm n) : ℝ) : EReal) :=
    fun b n => (outR_eq X L b n).trans (hrR b (rowPerm n))
  -- the view-major rows are the sample-major rows in another order
  have hperm : ∀ b : Fin 16, ∑ n, ((r b (rowPerm n) : ℝ) : EReal) = ∑ n, ((r b n : ℝ) : EReal) :=
    fun b => Equiv.sum_comp rowPerm (fun n => ((r b n : ℝ) : EReal))
  unfold GK GR
  simp only [hrK, hR, hperm, coe_sum, zero_add]
  rw [Ideal.div_coe (by norm_num), Ideal.div_coe (by norm_num)]
  simp only [Ideal.div_coe (show (2048 : ℝ) ≠ 0 by norm_num), ← EReal.coe_mul, coe_sum]
  congr 1
  rw [← Finset.mul_sum, ← Finset.sum_mul]
  ring

end Cert.Spec
-- ==== Proof.Finite.lean ====
/-
  The precondition says that every feature is finite: it compares the absolute value of each entry with +∞ and takes
  the conjunction over all four axes. A conjunction that came out 1 met a 1 at every entry, so every entry's absolute
  value — the larger of the entry and its negation — lies strictly below +∞. That excludes both infinities (each has
  absolute value +∞), so every entry is a real number.
-/
import proofs.«114794_j83786222010855_2_alg».proof.Pre_finite_inputs
import Idealize.ShloMosaic.PureOps.Ideal
import Idealize.ShloMosaic.Lib.ValueIdx
import Idealize.ShloMosaic.Lib.ReduceAll

noncomputable section

namespace Cert.Finite

open Cert.Pre_finite_inputs Cert.Pre_finite_inputs.Facts Idealize.ShloMosaic Idealize.ShloMosaic.ValueIdx

/-- The scalar shape has one index. -/
instance : Subsingleton S_.Idx := ⟨fun _ _ => funext fun d => d.elim0⟩

/-- The word of +∞ denotes the top of the extended reals. -/
theorem ofBits_inf : Ideal.ofBits .f32 0x7F800000#32 = ⊤ := by
  simp [Ideal.ofBits, Ideal.ieee]

/-- Under the precondition every feature is a real number. -/
theorem real_of_pre [Facts] (x0 : FVec Ideal S16x1024x2x128 .f32) (x1 : IVec S16x1024 32)
    (h : fn (F := Ideal) x0 x1 = fun _ => 1#1) : ∀ i, ∃ r : ℝ, x0 i = (r : EReal) := by
  intro i
  have h0 := congrFun h ix0
  dsimp only [fn] at h0
  have hi := Host.reduce_andi_all _ _ _ _ _ h0 i
  have hi' : BitVec.ofBool (decide (max (x0 i) (-(x0 i)) < Ideal.ofBits .f32 0x7F800000#32)) = 1#1 := hi
  rw [ofBits_inf] at hi'
  have hlt : max (x0 i) (-(x0 i)) < ⊤ := by
    by_contra hc
    rw [show decide (max (x0 i) (-(x0 i)) < (⊤ : EReal)) = false from decide_eq_false hc] at hi'
    exact absurd hi' (by decide)
  generalize x0 i = y at hlt ⊢
  induction y using EReal.rec with
  | bot => simp at hlt
  | coe r => exact ⟨r, rfl⟩
  | top => simp at hlt

end Cert.Finite

end
-- ==== Proof.lean ====
/-
  A supervised contrastive loss computed two ways gives one value on the extended reals.

  The kernel takes each batch's 2048 rows (1024 samples, two views each) sample-major, and for every row subtracts the
  row's largest logit and the logarithm of the sum of the shifted exponentials once from the mean of the positives' logits;
  it scales the inner products by the named inverse temperature 134217728 / 9395241 and takes one mean over all
  16 · 2048 rows. The reference takes the rows view-major, multiplies by 0/1 masks, subtracts inside the masked sum,
  divides the inner products by the temperature 9395241 / 134217728, and takes the mean of the batches' means.

  Both forms are stated once as functions of the two argument arrays (Proof/Spec.lean). The kernel's run ends at the
  first form (Proof/KLogit … KArray: one grid point's logits, masks and row statistics read index by index, the blocks
  assembled into the output array, the host's closing mean), the reference's run at the second (Proof/RefLogit … RefValue),
  and the two forms agree when every feature is finite (Proof/MathReal … Math): every quantity is then a real number, each
  row has a positive (its sample's other view), so the mean over the positives distributes over the subtraction, the two
  row orders differ by a permutation of the rows and columns that the sums and the maxima do not see, and the two
  scales are one number. Finiteness of the features is the precondition (Proof/Finite.lean).
-/
import proofs.«114794_j83786222010855_2_alg».proof.Defs
import proofs.«114794_j83786222010855_2_alg».proof.Proof.Gen.Kernel
import proofs.«114794_j83786222010855_2_alg».proof.Proof.Gen.Kernel.Skeleton
import proofs.«114794_j83786222010855_2_alg».proof.Proof.Gen.Kernel.Launch
import proofs.«114794_j83786222010855_2_alg».proof.Proof.Gen.Kernel.Points
import proofs.«114794_j83786222010855_2_alg».proof.Proof.Gen.Kernel.Frame
import proofs.«114794_j83786222010855_2_alg».proof.Proof.Gen.KernelIdeal
import proofs.«114794_j83786222010855_2_alg».proof.Proof.Gen.KernelIdeal.Skeleton
import proofs.«114794_j83786222010855_2_alg».proof.Proof.Gen.KernelIdeal.Launch
import proofs.«114794_j83786222010855_2_alg».proof.Proof.Gen.KernelIdeal.Points
import proofs.«114794_j83786222010855_2_alg».proof.Proof.Gen.KernelIdeal.Frame
import proofs.«114794_j83786222010855_2_alg».proof.Proof.Gen.ReferenceIdeal
import proofs.«114794_j83786222010855_2_alg».proof.Proof.Gen.ReferenceIdeal.Run
import proofs.«114794_j83786222010855_2_alg».proof.Proof.Gen.ReferenceIdeal.Read
import proofs.«114794_j83786222010855_2_alg».proof.Proof.Gen.Pre_finite_inputs
import proofs.«114794_j83786222010855_2_alg».proof.Proof.KArray
import proofs.«114794_j83786222010855_2_alg».proof.Proof.RefValue
import proofs.«114794_j83786222010855_2_alg».proof.Proof.Math
import proofs.«114794_j83786222010855_2_alg».proof.Proof.Finite
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewritten constant: the scale's word is named the inverse temperature 134217728 / 9395241, the exact
    reciprocal of the temperature the reference divides by. -/
theorem preserves : Cert.preserves_Kernel_KernelIdeal :=
  IdealRules.named_const.statement Cert.KernelIdeal.κ "inv_temperature" .f32 0x41649249#32
    ((134217728 / 9395241 : ℝ) : EReal) rfl

/-- From agreeing arguments whose features are finite, the kernel's run ends at the sample-major form of the loss and the
    reference's at the view-major form, and the two forms are one extended real. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefValue.result_eq, (hagree c).1, (hagree c).2]
  funext _
  exact (Cert.Spec.GK_eq_GR _ _ (Cert.Finite.real_of_pre _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
